-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x16384 : Shape := ⟨3, ![4, 64, 16384]⟩
abbrev S4x16384x3 : Shape := ⟨3, ![4, 16384, 3]⟩
abbrev S4x16384x16 : Shape := ⟨3, ![4, 16384, 16]⟩
abbrev S10x64 : Shape := ⟨2, ![10, 64]⟩
abbrev S64 : Shape := ⟨1, ![64]⟩
abbrev S128x128 : Shape := ⟨2, ![128, 128]⟩
abbrev S128 : Shape := ⟨1, ![128]⟩
abbrev S_ : Shape := ⟨0, ![]⟩

class Facts : Prop where
  bcast_S_S4x64x16384 : S_.BroadcastsInDim S4x64x16384 (![] : Fin 0 → Fin S4x64x16384.rank)
  reducesTo_S4x64x16384_S_d0_1_2 : S4x64x16384.ReducesTo [0, 1, 2] S_
  h_S_ : 0 < S_.numel
  bcast_S_S4x16384x3 : S_.BroadcastsInDim S4x16384x3 (![] : Fin 0 → Fin S4x16384x3.rank)
  reducesTo_S4x16384x3_S_d0_1_2 : S4x16384x3.ReducesTo [0, 1, 2] S_
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x64x16384 .f32) (main_arg1 : FVec F S4x16384x3 .f32) (main_arg2 : IVec S4x16384x16 32) (main_arg3 : FVec F S10x64 .f32) (main_arg4 : FVec F S64 .f32) (main_arg5 : FVec F S128x128 .f32) (main_arg6 : FVec F S128x128 .f32) (main_arg7 : FVec F S128 .f32) : IVec S_ 1 :=
  let main_v0 : FVec F S4x64x16384 .f32 := Host.absf main_arg0
  let main_cst : FVec F S_ .f32 := constant S_ .f32 0x7F800000#32
  let main_v1 : FVec F S4x64x16384 .f32 := broadcastInDim S4x64x16384 ![] bcast_S_S4x64x16384 main_cst
  let main_v2 : IVec S4x64x16384 1 := cmpf .olt main_v0 main_v1
  let main_c : IVec S_ 1 := constantI S_ 1 1#1
  let main_v3 : IVec S_ 1 := (fun x v => Host.reduce IntOp.andi x v reducesTo_S4x64x16384_S_d0_1_2 h_S_) main_v2 main_c
  let main_v4 : FVec F S4x16384x3 .f32 := Host.absf main_arg1
  let main_cst_0 : FVec F S_ .f32 := constant S_ .f32 0x7F800000#32
  let main_v5 : FVec F S4x16384x3 .f32 := broadcastInDim S4x16384x3 ![] bcast_S_S4x16384x3 main_cst_0
  let main_v6 : IVec S4x16384x3 1 := cmpf .olt main_v4 main_v5
  let main_c_1 : IVec S_ 1 := constantI S_ 1 1#1
  let main_v7 : IVec S_ 1 := (fun x v => Host.reduce IntOp.andi x v reducesTo_S4x16384x3_S_d0_1_2 h_S_) main_v6 main_c_1
  let main_v8 : IVec S_ 1 := andi main_v3 main_v7
  let main_v9 : FVec F S10x64 .f32 := Host.absf main_arg3
  let main_cst_2 : FVec F S_ .f32 := constant S_ .f32 0x7F800000#32
  let main_v10 : FVec F S10x64 .f32 := broadcastInDim S10x64 ![] bcast_S_S10x64 main_cst_2
  let main_v11 : IVec S10x64 1 := cmpf .olt main_v9 main_v10
  let main_c_3 : IVec S_ 1 := constantI S_ 1 1#1
  let main_v12 : IVec S_ 1 := (fun x v => Host.reduce IntOp.andi x v reducesTo_S10x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S4x64x16384 : Shape := ⟨3, ![4, 64, 16384]⟩
abbrev S4x16384x3 : Shape := ⟨3, ![4, 16384, 3]⟩
abbrev S4x16384x16 : Shape := ⟨3, ![4, 16384, 16]⟩
abbrev S10x64 : Shape := ⟨2, ![10, 64]⟩
abbrev S64 : Shape := ⟨1, ![64]⟩
abbrev S128x128 : Shape := ⟨2, ![128, 128]⟩
abbrev S128 : Shape := ⟨1, ![128]⟩
abbrev S4x16384x64 : Shape := ⟨3, ![4, 16384, 64]⟩
abbrev S_ : Shape := ⟨0, ![]⟩
abbrev S4x16384x16x1 : Shape := ⟨4, ![4, 16384, 16, 1]⟩
abbrev S4x16384x16x3 : Shape := ⟨4, ![4, 16384, 16, 3]⟩
abbrev S4x16384x16x64 : Shape := ⟨4, ![4, 16384, 16, 64]⟩
abbrev S4x128x16384 : Shape := ⟨3, ![4, 128, 16384]⟩
abbrev S1x512x3 : Shape := ⟨3, ![1, 512, 3]⟩
abbrev S1x512x16x3 : Shape := ⟨4, ![1, 512, 16, 3]⟩
abbrev S1x512x16x64 : Shape := ⟨4, ![1, 512, 16, 64]⟩
abbrev S1x128x512 : Shape := ⟨3, ![1, 128, 512]⟩
abbrev S512x3 : Shape := ⟨2, ![512, 3]⟩
abbrev S512x16x3 : Shape := ⟨3, ![512, 16, 3]⟩
abbrev S512x16x64 : Shape := ⟨3, ![512, 16, 64]⟩
abbrev S512x1x3 : Shape := ⟨3, ![512, 1, 3]⟩
abbrev S512x16 : Shape := ⟨2, ![512, 16]⟩
abbrev S512x16x1 : Shape := ⟨3, ![512, 16, 1]⟩
abbrev S512x16x10 : Shape := ⟨3, ![512, 16, 10]⟩
abbrev S8192x10 : Shape := ⟨2, ![8192, 10]⟩
abbrev S8192x64 : Shape := ⟨2, ![8192, 64]⟩
abbrev S1x64 : Shape := ⟨2, ![1, 64]⟩
abbrev S512x16x128 : Shape := ⟨3, ![512, 16, 128]⟩
abbrev S8192x128 : Shape := ⟨2, ![8192, 128]⟩
abbrev S512x128 : Shape := ⟨2, ![512, 128]⟩
abbrev S512x1x128 : Shape := ⟨3, ![512, 1, 128]⟩
abbrev S1x128 : Shape := ⟨2, ![1, 128]⟩
abbrev S128x512 : Shape := ⟨2, ![128, 512]⟩

abbrev nBuf : Space → Nat
  | .hbm => 29
  | .vmem => 13
  | .smem => 0
  | _ => 0

abbrev bufTy : (tb : Table) → Fin (tcTables nBuf tb) → BufTy
  | .hbm, ⟨0, _⟩ => ⟨S4x64x16384, .f32⟩
  | .hbm, ⟨1, _⟩ => ⟨S4x16384x3, .f32⟩
  | .hbm, ⟨2, _⟩ => ⟨S4x16384x16, .i32⟩
  | .hbm, ⟨3, _⟩ => ⟨S10x64, .f32⟩
  | .hbm, ⟨4, _⟩ => ⟨S64, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S4x16384x64, .f32⟩
  | .hbm, ⟨9, _⟩ => ⟨S4x16384x64, .bf16⟩
  | .hbm, ⟨10, _⟩ => ⟨S_, .i32⟩
  | .hbm, ⟨11, _⟩ => ⟨S4x16384x16, .i32⟩
  | .hbm, ⟨12, _⟩ => ⟨S4x16384x16, .i1⟩
  | .hbm, ⟨13, _⟩ => ⟨S_, .i32⟩
  | .hbm, ⟨14, _⟩ => ⟨S4x16384x16, .i32⟩
  | .hbm, ⟨15, _⟩ => ⟨S4x16384x16, .i32⟩
  | .hbm, ⟨16, _⟩ => ⟨S4x16384x16, .i32⟩
  | .hbm, ⟨17, _⟩ => ⟨S4x16384x16x1, .i32⟩
  | .hbm, ⟨18, _⟩ => ⟨S4x16384x16x3, .f32⟩
  | .hbm, ⟨19, _⟩ => ⟨S_, .i32⟩
  | .hbm, ⟨20, _⟩ => ⟨S4x16384x16, .i32⟩
  | .hbm, ⟨21, _⟩ => ⟨S4x16384x16, .i1⟩
  | .hbm, ⟨22, _⟩ => ⟨S_, .i32⟩
  | .hbm, ⟨23, _⟩ => ⟨S4x16384x16, .i32⟩
  | .hbm, ⟨24, _⟩ => ⟨S4x16384x16, .i32⟩
  | .hbm, ⟨25, _⟩ => ⟨S4x16384x16, .i32⟩
  | .hbm, ⟨26, _⟩ => ⟨S4x16384x16x1, .i32⟩
  | .hbm, ⟨27, _⟩ => ⟨S4x16384x16x64, .bf16⟩
  | .hbm, ⟨28, _⟩ => ⟨S4x128x16384, .f32⟩
  | .local _ .vmem, ⟨0, _⟩ => ⟨S1x512x3, .f32⟩
  | .local _ .vmem, ⟨1, _⟩ => ⟨S1x512x3, .f32⟩
  | .local _ .vmem, ⟨2, _⟩ => ⟨S1x512x16x3, .f32⟩
  | .local _ .vmem, ⟨3, _⟩ => ⟨S1x512x16x3, .f32⟩
  | .local _ .vmem, ⟨4, _⟩ => ⟨S1x512x16x64, .bf16⟩
  | .local _ .vmem, ⟨5, _⟩ => ⟨S1x512x16x64, .bf16⟩
  | .local _ .vmem, ⟨6, _⟩ => ⟨S10x64, .f32⟩
  | .local _ .vmem, ⟨7, _⟩ => ⟨S64, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S1x128x512, .f32⟩
  | .local _ .vmem, ⟨12, _⟩ => ⟨S1x128x512, .f32⟩
  | _, _ => ⟨S4x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S4x64x16384_S4x16384x64_0_2_1 : S4x64x16384.Transposes [0, 2, 1] S4x16384x64
  bitsLt_bf16_f32 : FTy.bits .bf16 < FTy.bits .f32
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x16x3_S1x512x16x3_0_0_0_0 : ∀ a, (![0, 0, 0, 0] : Fin 4 → Nat) a + S1x512x16x3.size a ≤ S1x512x16x3.size a
  h_S1x512x16x3 : 0 < S1x512x16x3.numel
  shapeCasts_S1x512x16x3_S512x16x3 : S1x512x16x3.ShapeCasts S512x16x3
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  shapeCasts_S512x3_S512x1x3 : S512x3.ShapeCasts S512x1x3
  shapeCasts_S512x1x3_S512x1x3 : S512x1x3.ShapeCasts S512x1x3
  broadcasts_S512x1x3_S512x16x3 : S512x1x3.Broadcasts S512x16x3
  reduces_S512x16x3_S512x16 : S512x16x3.Reduces [2] S512x16
  shapeCasts_S512x16_S512x16x1 : S512x16.ShapeCasts S512x16x1
  concatenates_S512x16x3_S512x16x3_S512x16x3_S512x16x1_S512x16x10_d2 : Shape.Concatenates [S512x16x3, S512x16x3, S512x16x3, S512x16x1] S512x16x10 2
  inb_S10x64_S10x64_0_0 : ∀ a, (![0, 0] : Fin 2 → Nat) a + S10x64.size a ≤ S10x64.size a
  h_S10x64 : 0 < S10x64.numel
  inb_S64_S64_0 : ∀ a, (![0] : Fin 1 → Nat) a + S64.size a ≤ S64.size a
  h_S64 : 0 < S64.numel
  shapeCasts_S512x16x10_S8192x10 : S512x16x10.ShapeCasts S8192x10
  shapeCasts_S64_S1x64 : S64.ShapeCasts S1x64
  broadcasts_S1x64_S8192x64 : S1x64.Broadcasts S8192x64
  shapeCasts_S8192x64_S512x16x64 : S8192x64.ShapeCasts S512x16x64
  concatenates_S512x16x64_S512x16x64_S512x16x128_d2 : Shape.Concatenates [S512x16x64, S512x16x64] S512x16x128 2
  inb_S128x128_S128x128_0_0 : ∀ a, (![0, 0] : Fin 2 → Nat) a + S128x128.size a ≤ S128x128.size a
  h_S128x128 : 0 < S128x128.numel
  shapeCasts_S512x16x128_S8192x128 : S512x16x128.ShapeCasts S8192x128
  shapeCasts_S8192x128_S512x16x128 : S8192x128.ShapeCasts S512x16x128
  reduces_S512x16x128_S512x128 : S512x16x128.Reduces [1] S512x128
  shapeCasts_S512x128_S512x1x128 : S512x128.ShapeCasts S512x1x128
  broadcasts_S512x1x128_S512x16x128 : S512x1x128.Broadcasts S512x16x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  transposes_S512x128_p1_0_S128x512 : S512x128.Transposes [1, 0] S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  gather_S4x16384x3_S4x16384x16x1_S4x16384x16x3_3_1_0_0_1_3_113_wf : GatherDims.WF S4x16384x3 S4x16384x16x1 S4x16384x16x3 [3] [1] [0] [1] [0] 3 ![1, 1, 3]
  gather_S4x16384x64_S4x16384x16x1_S4x16384x16x64_3_1_0_0_1_3_1164_wf : GatherDims.WF S4x16384x64 S4x16384x16x1 S4x16384x16x64 [3] [1] [0] [1] [0] 3 ![1, 1, 64]
  dot_S8192x10_S10x64_S8192x64_1_0_0_1_n_n_wf : DotDims.WF S8192x10 S10x64 S8192x64 [1] [0] [0] [1] [] []
  dot_S8192x128_S128x128_S8192x128_1_0_0_1_n_n_wf : DotDims.WF S8192x128 S128x128 S8192x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x16384x3.size a
  hwx0_0 : ∀ i : grid0.Coords, EltTy.bits .f32 = 32 ∨ (Rect.block (s := S4x16384x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x16x3.size a ≤ S4x16384x16x3.size a
  hwx0_1 : ∀ i : grid0.Coords, EltTy.bits .f32 = 32 ∨ (Rect.block (s := S4x16384x16x3) S1x512x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x16x64.size a ≤ S4x16384x16x64.size a
  hwx0_2 : ∀ i : grid0.Coords, EltTy.bits .bf16 = 32 ∨ (Rect.block (s := S4x16384x16x64) S1x512x16x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x64.size a ≤ S10x64.size a
  hwx0_3 : ∀ i : grid0.Coords, EltTy.bits .f32 = 32 ∨ (Rect.block (s := S10x64) S10x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x512.size a ≤ S4x128x16384.size a
  hwx0_8 : ∀ i : grid0.Coords, EltTy.bits .f32 = 32 ∨ (Rect.block (s := S4x128x16384) S1x128x512.size (cc0_transform_8 i) (hinb0_8 i)).WholeWords (EltTy.packing .f32)

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def gather_S4x16384x64_S4x16384x16x1_S4x16384x16x64_3_1_0_0_1_3_1164 : GatherDims S4x16384x64 S4x16384x16x1 S4x16384x16x64 where
  offsetDims := [3]
  collapsedSliceDims := [1]
  operandBatchingDims := [0]
  startIndicesBatchingDims := [0]
  startIndexMap := [1]
  indexVectorDim := 3
  sliceSizes := ![1, 1, 64]
  wf := gather_S4x16384x64_S4x16384x16x1_S4x16384x16x64_3_1_0_0_1_3_1164_wf
def dot_S8192x10_S10x64_S8192x64_1_0_0_1_n_n : DotDims S8192x10 S10x64 S8192x64 where
  lhsContracting := [1]
  rhsContracting := [0]
  lhsNonContracting := [0]
  rhsNonContracting := [1]
  lhsBatch := []
  rhsBatch := []
  wf := dot_S8192x10_S10x64_S8192x64_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x64x16384 : Shape := ⟨3, ![4, 64, 16384]⟩
abbrev S4x16384x3 : Shape := ⟨3, ![4, 16384, 3]⟩
abbrev S4x16384x16 : Shape := ⟨3, ![4, 16384, 16]⟩
abbrev S10x64 : Shape := ⟨2, ![10, 64]⟩
abbrev S64 : Shape := ⟨1, ![64]⟩
abbrev S128x128 : Shape := ⟨2, ![128, 128]⟩
abbrev S128 : Shape := ⟨1, ![128]⟩
abbrev S4x16384x64 : Shape := ⟨3, ![4, 16384, 64]⟩
abbrev S_ : Shape := ⟨0, ![]⟩
abbrev S4x16384x16x1 : Shape := ⟨4, ![4, 16384, 16, 1]⟩
abbrev S4x16384x16x3 : Shape := ⟨4, ![4, 16384, 16, 3]⟩
abbrev S4x16384x16x64 : Shape := ⟨4, ![4, 16384, 16, 64]⟩
abbrev S4x16384x1x3 : Shape := ⟨4, ![4, 16384, 1, 3]⟩
abbrev S4x16384x16x10 : Shape := ⟨4, ![4, 16384, 16, 10]⟩
abbrev S1x1x1x64 : Shape := ⟨4, ![1, 1, 1, 64]⟩
abbrev S4x16384x16x128 : Shape := ⟨4, ![4, 16384, 16, 128]⟩
abbrev S4x16384x128 : Shape := ⟨3, ![4, 16384, 128]⟩
abbrev S4x16384x1x128 : Shape := ⟨4, ![4, 16384, 1, 128]⟩
abbrev S1x1x128 : Shape := ⟨3, ![1, 1, 128]⟩
abbrev S4x128x16384 : Shape := ⟨3, ![4, 128, 16384]⟩

abbrev nBuf : Space → Nat
  | .hbm => 70
  | .vmem => 0
  | .smem => 0
  | _ => 0

abbrev bufTy : (tb : Table) → Fin (tcTables nBuf tb) → BufTy
  | .hbm, ⟨0, _⟩ => ⟨S4x64x16384, .f32⟩
  | .hbm, ⟨1, _⟩ => ⟨S4x16384x3, .f32⟩
  | .hbm, ⟨2, _⟩ => ⟨S4x16384x16, .i32⟩
  | .hbm, ⟨3, _⟩ => ⟨S10x64, .f32⟩
  | .hbm, ⟨4, _⟩ => ⟨S64, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S4x16384x64, .f32⟩
  | .hbm, ⟨9, _⟩ => ⟨S_, .i32⟩
  | .hbm, ⟨10, _⟩ => ⟨S4x16384x16, .i32⟩
  | .hbm, ⟨11, _⟩ => ⟨S4x16384x16, .i1⟩
  | .hbm, ⟨12, _⟩ => ⟨S_, .i32⟩
  | .hbm, ⟨13, _⟩ => ⟨S4x16384x16, .i32⟩
  | .hbm, ⟨14, _⟩ => ⟨S4x16384x16, .i32⟩
  | .hbm, ⟨15, _⟩ => ⟨S4x16384x16, .i32⟩
  | .hbm, ⟨16, _⟩ => ⟨S4x16384x16x1, .i32⟩
  | .hbm, ⟨17, _⟩ => ⟨S4x16384x16x3, .f32⟩
  | .hbm, ⟨18, _⟩ => ⟨S_, .i32⟩
  | .hbm, ⟨19, _⟩ => ⟨S4x16384x16, .i32⟩
  | .hbm, ⟨20, _⟩ => ⟨S4x16384x16, .i1⟩
  | .hbm, ⟨21, _⟩ => ⟨S_, .i32⟩
  | .hbm, ⟨22, _⟩ => ⟨S4x16384x16, .i32⟩
  | .hbm, ⟨23, _⟩ => ⟨S4x16384x16, .i32⟩
  | .hbm, ⟨24, _⟩ => ⟨S4x16384x16, .i32⟩
  | .hbm, ⟨25, _⟩ => ⟨S4x16384x16x1, .i32⟩
  | .hbm, ⟨26, _⟩ => ⟨S4x16384x16x64, .f32⟩
  | .hbm, ⟨27, _⟩ => ⟨S4x16384x1x3, .f32⟩
  | .hbm, ⟨28, _⟩ => ⟨S4x16384x16x3, .f32⟩
  | .hbm, ⟨29, _⟩ => ⟨S4x16384x16x3, .f32⟩
  | .hbm, ⟨30, _⟩ => ⟨S4x16384x16x3, .f32⟩
  | .hbm, ⟨31, _⟩ => ⟨S_, .f32⟩
  | .hbm, ⟨32, _⟩ => ⟨S4x16384x16, .f32⟩
  | .hbm, ⟨33, _⟩ => ⟨S4x16384x16x1, .f32⟩
  | .hbm, ⟨34, _⟩ => ⟨S4x16384x16x1, .f32⟩
  | .hbm, ⟨35, _⟩ => ⟨S4x16384x16x10, .f32⟩
  | .hbm, ⟨36, _⟩ => ⟨S4x16384x16x64, .f32⟩
  | .hbm, ⟨37, _⟩ => ⟨S1x1x1x64, .f32⟩
  | .hbm, ⟨38, _⟩ => ⟨S4x16384x16x64, .f32⟩
  | .hbm, ⟨39, _⟩ => ⟨S4x16384x16x64, .f32⟩
  | .hbm, ⟨40, _⟩ => ⟨S_, .f32⟩
  | .hbm, ⟨41, _⟩ => ⟨S4x16384x16x64, .f32⟩
  | .hbm, ⟨42, _⟩ => ⟨S4x16384x16x64, .f32⟩
  | .hbm, ⟨43, _⟩ => ⟨S4x16384x16x128, .f32⟩
  | .hbm, ⟨44, _⟩ => ⟨S4x16384x16x128, .f32⟩
  | .hbm, ⟨45, _⟩ => ⟨S_, .f32⟩
  | .hbm, ⟨46, _⟩ => ⟨S4x16384x128, .f32⟩
  | .hbm, ⟨47, _⟩ => ⟨S_, .f32⟩
  | .hbm, ⟨48, _⟩ => ⟨S4x16384x128, .f32⟩
  | .hbm, ⟨49, _⟩ => ⟨S4x16384x128, .f32⟩
  | .hbm, ⟨50, _⟩ => ⟨S4x16384x1x128, .f32⟩
  | .hbm, ⟨51, _⟩ => ⟨S4x16384x16x128, .f32⟩
  | .hbm, ⟨52, _⟩ => ⟨S4x16384x16x128, .f32⟩
  | .hbm, ⟨53, _⟩ => ⟨S4x16384x16x128, .f32⟩
  | .hbm, ⟨54, _⟩ => ⟨S_, .f32⟩
  | .hbm, ⟨55, _⟩ => ⟨S4x16384x128, .f32⟩
  | .hbm, ⟨56, _⟩ => ⟨S4x16384x1x128, .f32⟩
  | .hbm, ⟨57, _⟩ => ⟨S4x16384x16x128, .f32⟩
  | .hbm, ⟨58, _⟩ => ⟨S4x16384x16x128, .f32⟩
  | .hbm, ⟨59, _⟩ => ⟨S4x16384x16x128, .f32⟩
  | .hbm, ⟨60, _⟩ => ⟨S_, .f32⟩
  | .hbm, ⟨61, _⟩ => ⟨S4x16384x128, .f32⟩
  | .hbm, ⟨62, _⟩ => ⟨S4x16384x128, .f32⟩
  | .hbm, ⟨63, _⟩ => ⟨S1x1x128, .f32⟩
  | .hbm, ⟨64, _⟩ => ⟨S4x16384x128, .f32⟩
  | .hbm, ⟨65, _⟩ => ⟨S4x16384x128, .f32⟩
  | .hbm, ⟨66, _⟩ => ⟨S_, .f32⟩
  | .hbm, ⟨67, _⟩ => ⟨S4x16384x128, .f32⟩
  | .hbm, ⟨68, _⟩ => ⟨S4x16384x128, .f32⟩
  | .hbm, ⟨69, _⟩ => ⟨S4x128x16384, .f32⟩
  | _, _ => ⟨S4x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  transposes_S4x64x16384_S4x16384x64_0_2_1 : S4x64x16384.Transposes [0, 2, 1] S4x16384x64
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  reducesTo_S4x16384x16x3_S4x16384x16_d3 : S4x16384x16x3.ReducesTo [3] S4x16384x16
  h_S_ : 0 < S_.numel
  concatenates_S4x16384x16x3_S4x16384x16x3_S4x16384x16x3_S4x16384x16x1_S4x16384x16x10_d3 : Shape.Concatenates [S4x16384x16x3, S4x16384x16x3, S4x16384x16x3, S4x16384x16x1] S4x16384x16x10 3
  bcast_S64_S1x1x1x64_3 : S64.BroadcastsInDim S1x1x1x64 (![3] : Fin 1 → Fin S1x1x1x64.rank)
  bcast_S1x1x1x64_S4x16384x16x64_0_1_2_3 : S1x1x1x64.BroadcastsInDim S4x16384x16x64 (![0, 1, 2, 3] : Fin 4 → Fin S4x16384x16x64.rank)
  bcast_S_S4x16384x16x64 : S_.BroadcastsInDim S4x16384x16x64 (![] : Fin 0 → Fin S4x16384x16x64.rank)
  concatenates_S4x16384x16x64_S4x16384x16x64_S4x16384x16x128_d3 : Shape.Concatenates [S4x16384x16x64, S4x16384x16x64] S4x16384x16x128 3
  reducesTo_S4x16384x16x128_S4x16384x128_d2 : S4x16384x16x128.ReducesTo [2] S4x16384x128
  bcast_S_S4x16384x128 : S_.BroadcastsInDim S4x16384x128 (![] : Fin 0 → Fin S4x16384x128.rank)
  bcast_S4x16384x128_S4x16384x1x128_0_1_3 : S4x16384x128.BroadcastsInDim S4x16384x1x128 (![0, 1, 3] : Fin 3 → Fin S4x16384x1x128.rank)
  bcast_S4x16384x1x128_S4x16384x16x128_0_1_2_3 : S4x16384x1x128.BroadcastsInDim S4x16384x16x128 (![0, 1, 2, 3] : Fin 4 → Fin S4x16384x16x128.rank)
  bcast_S128_S1x1x128_2 : S128.BroadcastsInDim S1x1x128 (![2] : Fin 1 → Fin S1x1x128.rank)
  bcast_S1x1x128_S4x16384x128_0_1_2 : S1x1x128.BroadcastsInDim S4x16384x128 (![0, 1, 2] : Fin 3 → Fin S4x16384x128.rank)
  transposes_S4x16384x128_S4x128x16384_0_2_1 : S4x16384x128.Transposes [0, 2, 1] S4x128x16384
  gather_S4x16384x3_S4x16384x16x1_S4x16384x16x3_3_1_0_0_1_3_113_wf : GatherDims.WF S4x16384x3 S4x16384x16x1 S4x16384x16x3 [3] [1] [0] [1] [0] 3 ![1, 1, 3]
  gather_S4x16384x64_S4x16384x16x1_S4x16384x16x64_3_1_0_0_1_3_1164_wf : GatherDims.WF S4x16384x64 S4x16384x16x1 S4x16384x16x64 [3] [1] [0] [1] [0] 3 ![1, 1, 64]
  dot_S4x16384x16x10_S10x64_S4x16384x16x64_3_0_012_1_n_n_wf : DotDims.WF S4x16384x16x10 S10x64 S4x16384x16x64 [3] [0] [0, 1, 2] [1] [] []
  dot_S4x16384x16x128_S128x128_S4x16384x16x128_3_0_012_1_n_n_wf : DotDims.WF S4x16384x16x128 S128x128 S4x16384x16x128 [3] [0] [0, 1, 2] [1] [] []
  dot_S4x16384x128_S128x128_S4x16384x128_2_0_01_1_n_n_wf : DotDims.WF S4x16384x128 S128x128 S4x16384x128 [2] [0] [0, 1] [1] [] []

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def gather_S4x16384x64_S4x16384x16x1_S4x16384x16x64_3_1_0_0_1_3_1164 : GatherDims S4x16384x64 S4x16384x16x1 S4x16384x16x64 where
  offsetDims := [3]
  collapsedSliceDims := [1]
  operandBatchingDims := [0]
  startIndicesBatchingDims := [0]
  startIndexMap := [1]
  indexVectorDim := 3
  sliceSizes := ![1, 1, 64]
  wf := gather_S4x16384x64_S4x16384x16x1_S4x16384x16x64_3_1_0_0_1_3_1164_wf
def dot_S4x16384x16x10_S10x64_S4x16384x16x64_3_0_012_1_n_n : DotDims S4x16384x16x10 S10x64 S4x16384x16x64 where
  lhsContracting := [3]
  rhsContracting := [0]
  lhsNonContracting := [0, 1, 2]
  rhsNonContracting := [1]
  lhsBatch := []
  rhsBatch := []
  wf := dot_S4x16384x16x10_S10x64_S4x16384x16x64_3_0_012_1_n_n_wf
def dot_S4x16384x16x128_S128x128_S4x16384x16x128_3_0_012_1_n_n : DotDims S4x16384x16x128 S128x128 S4x16384x16x128 where
  lhsContracting := [3]
  rhsContracting := [0]
  lhsNonContracting := [0, 1, 2]
  rhsNonContracting := [1]
  lhsBatch := []
  rhsBatch := []
  wf := dot_S4x16384x16x128_S128x128_S4x16384x16x128_3_0_012_1_n_n_wf
def dot_S4x16384x128_S128x128_S4x16384x128_2_0_01_1_n_n : DotDims S4x16384x128 S128x128 S4x16384x128 where
  lhsContracting := [2]
  rhsContracting := [0]
  lhsNonContracting := [0, 1]
  rhsNonContracting := [1]
  lhsBatch := []
  rhsBatch := []
  wf := dot_S4x16384x128_S128x128_S4x16384x128_2_0_01_1_n_n_wf

class Facts : Prop extends Facts₀ where

variable [Facts]
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.Spec.lean ====
/-
  Attentive pooling of a point's neighbourhood, on the extended reals: the function both programs compute.

  One query point has a position `p`, and sixteen neighbours, neighbour `k` with a position `Q k` and a
  64-channel feature `N k`.  The pair (point, neighbour) is encoded in ten numbers `enc p q`: the point's
  position, the neighbour's, their difference, and the Euclidean length of the difference.  A rectified affine
  layer `rp` maps the encoding to 64 channels; joined with the neighbour's own feature this is the 128-channel
  feature `feat`.  A linear map gives each neighbour a score per channel; per channel the scores of the sixteen
  neighbours are turned into softmax weights (exponentials of the score less the greatest score, over their sum),
  the features are averaged with these weights (`pool`), and a last rectified affine layer gives the point's 128
  outputs (`point`).  `G` is the whole array: output `(b, o, n)` is channel `o` of point `n` of batch `b`.
  Nothing here needs the entries to be finite: both programs are compared operation by operation.
-/
import Idealize.ShloMosaic.PureOps.Ideal
import Idealize.ShloMosaic.Lib.ValueIdx
import proofs.«109014_j71717363908926_2_alg».proof.Proof.LibPoolFold

noncomputable section

open scoped BigOperators

namespace Cert.Randla

open Idealize.ShloMosaic Idealize.ShloMosaic.ValueIdx Cert.PoolFold

/-- The value the maxima start from: the word of -∞. -/
abbrev ninf : EReal := Ideal.ofBits .f32 0xFF800000#32

/-- The ten position features of a point at `p` and a neighbour at `q`. -/
def enc (p q : Fin 3 → EReal) (e : Fin 10) : EReal :=
  if h : e.val < 3 then p ⟨e.val, h⟩
  else if h6 : e.val < 6 then q ⟨e.val - 3, by omega⟩
  else if h9 : e.val < 9 then q ⟨e.val - 6, by omega⟩ - p ⟨e.val - 6, by omega⟩
  else Ideal.sqrt (∑ j : Fin 3, (q j - p j) * (q j - p j))

theorem enc_center (p q : Fin 3 → EReal) (e : Fin 10) (j : Fin 3) (he : e.val = j.val) : enc p q e = p j := by
  have h : e.val < 3 := by omega
  unfold enc
  rw [dif_pos h]
  exact congrArg p (Fin.ext he)

theorem enc_nbr (p q : Fin 3 → EReal) (e : Fin 10) (j : Fin 3) (he : e.val = 3 + j.val) : enc p q e = q j := by
  have h : ¬ e.val < 3 := by omega
  have h6 : e.val < 6 := by omega
  unfold enc
  rw [dif_neg h, dif_pos h6]
  exact congrArg q (Fin.ext (by show e.val - 3 = j.val; omega))

theorem enc_rel (p q : Fin 3 → EReal) (e : Fin 10) (j : Fin 3) (he : e.val = 6 + j.val) : enc p q e = q j - p j := by
  have h : ¬ e.val < 3 := by omega
  have h6 : ¬ e.val < 6 := by omega
  have h9 : e.val < 9 := by omega
  have ej : (⟨e.val - 6, by omega⟩ : Fin 3) = j := Fin.ext (by show e.val - 6 = j.val; omega)
  unfold enc
  rw [dif_neg h, dif_neg h6, dif_pos h9, ej]

theorem enc_dist (p q : Fin 3 → EReal) (e : Fin 10) (he : e.val = 9) :
    enc p q e = Ideal.sqrt (∑ j : Fin 3, (q j - p j) * (q j - p j)) := by
  have h : ¬ e.val < 3 := by omega
  have h6 : ¬ e.val < 6 := by omega
  have h9 : ¬ e.val < 9 := by omega
  unfold enc
  rw [dif_neg h, dif_neg h6, dif_neg h9]

/-- The position layer: 64 rectified affine channels of the encoding. -/
def rp (Wr : Fin 10 → Fin 64 → EReal) (br : Fin 64 → EReal) (p q : Fin 3 → EReal) (d : Fin 64) : EReal :=
  max ((∑ e : Fin 10, enc p q e * Wr e d) + br d) 0

/-- A neighbour's 128 channels: the position layer's 64, then its own 64. -/
def feat (Wr : Fin 10 → Fin 64 → EReal) (br : Fin 64 → EReal) (p q : Fin 3 → EReal) (g : Fin 64 → EReal)
    (c : Fin 128) : EReal :=
  if h : c.val < 64 then rp Wr br p q ⟨c.val, h⟩ else g ⟨c.val - 64, by omega⟩

theorem feat_lo (Wr : Fin 10 → Fin 64 → EReal) (br : Fin 64 → EReal) (p q : Fin 3 → EReal) (g : Fin 64 → EReal)
    (c : Fin 128) (d : Fin 64) (hc : c.val = d.val) : feat Wr br p q g c = rp Wr br p q d := by
  have h : c.val < 64 := by omega
  unfold feat
  rw [dif_pos h]
  exact congrArg (rp Wr br p q) (Fin.ext hc)

theorem feat_hi (Wr : Fin 10 → Fin 64 → EReal) (br : Fin 64 → EReal) (p q : Fin 3 → EReal) (g : Fin 64 → EReal)
    (c : Fin 128) (d : Fin 64) (hc : c.val = 64 + d.val) : feat Wr br p q g c = g d := by
  have h : ¬ c.val < 64 := by omega
  unfold feat
  rw [dif_neg h]
  exact congrArg g (Fin.ext (by show c.val - 64 = d.val; omega))

/-- A neighbour's score in channel `c`. -/
def score (Wa : Fin 128 → Fin 128 → EReal) (f : Fin 128 → EReal) (c : Fin 128) : EReal :=
  ∑ a : Fin 128, f a * Wa a c

/-- The greatest score of channel `c` among the neighbours. -/
def top (Wa : Fin 128 → Fin 128 → EReal) (F : Fin 16 → Fin 128 → EReal) (c : Fin 128) : EReal :=
  maxOver ninf (fun k : Fin 16 => score Wa (F k) c)

/-- The exponential of a neighbour's score less the greatest. -/
def ex (Wa : Fin 128 → Fin 128 → EReal) (F : Fin 16 → Fin 128 → EReal) (k : Fin 16) (c : Fin 128) : EReal :=
  Ideal.exp (score Wa (F k) c - top Wa F c)

/-- The softmax-weighted average of the neighbours' features, channel by channel. -/
def pool (Wa : Fin 128 → Fin 128 → EReal) (F : Fin 16 → Fin 128 → EReal) (c : Fin 128) : EReal :=
  ∑ k : Fin 16, F k c * Ideal.div (ex Wa F k c) (∑ k' : Fin 16, ex Wa F k' c)

/-- The last rectified affine layer. -/
def out (Wg : Fin 128 → Fin 128 → EReal) (bg : Fin 128 → EReal) (a : Fin 128 → EReal) (o : Fin 128) : EReal :=
  max ((∑ c : Fin 128, a c * Wg c o) + bg o) 0

/-- One point's 128 outputs. -/
def point (Wr : Fin 10 → Fin 64 → EReal) (br : Fin 64 → EReal) (Wa Wg : Fin 128 → Fin 128 → EReal)
    (bg : Fin 128 → EReal) (p : Fin 3 → EReal) (Q : Fin 16 → Fin 3 → EReal) (N : Fin 16 → Fin 64 → EReal)
    (o : Fin 128) : EReal :=
  out Wg bg (pool Wa (fun k => feat Wr br p (Q k) (N k))) o

/-- The whole result: output `(b, o, n)` is channel `o` of point `n` of batch `b`, from the positions, the
    gathered neighbour positions and features, and the three layers' weights. -/
def G (pos : (⟨3, ![4, 16384, 3]⟩ : Shape).Idx → EReal) (np : (⟨4, ![4, 16384, 16, 3]⟩ : Shape).Idx → EReal)
    (nf : (⟨4, ![4, 16384, 16, 64]⟩ : Shape).Idx → EReal) (wr : (⟨2, ![10, 64]⟩ : Shape).Idx → EReal)
    (br : (⟨1, ![64]⟩ : Shape).Idx → EReal) (wa wg : (⟨2, ![128, 128]⟩ : Shape).Idx → EReal)
    (bg : (⟨1, ![128]⟩ : Shape).Idx → EReal) : (⟨3, ![4, 128, 16384]⟩ : Shape).Idx → EReal := fun i =>
  let b : Fin 4 := ⟨(i 0).val, (i 0).isLt⟩
  let o : Fin 128 := ⟨(i 1).val, (i 1).isLt⟩
  let n : Fin 16384 := ⟨(i 2).val, (i 2).isLt⟩
  point (fun e d => wr (ix2 e d)) (fun d => br (ix1 d)) (fun a c => wa (ix2 a c)) (fun c o' => wg (ix2 c o'))
    (fun o' => bg (ix1 o')) (fun j => pos (ix3 b n j)) (fun k j => np (ix4 b n k j)) (fun k d => nf (ix4 b n k d)) o

theorem G_apply (pos : (⟨3, ![4, 16384, 3]⟩ : Shape).Idx → EReal) (np : (⟨4, ![4, 16384, 16, 3]⟩ : Shape).Idx → EReal)
    (nf : (⟨4, ![4, 16384, 16, 64]⟩ : Shape).Idx → EReal) (wr : (⟨2, ![10, 64]⟩ : Shape).Idx → EReal)
    (br : (⟨1, ![64]⟩ : Shape).Idx → EReal) (wa wg : (⟨2, ![128, 128]⟩ : Shape).Idx → EReal)
    (bg : (⟨1, ![128]⟩ : Shape).Idx → EReal) (b : Fin 4) (o : Fin 128) (n : Fin 16384) :
    G pos np nf wr br wa wg bg (ix3 b o n)
      = point (fun e d => wr (ix2 e d)) (fun d => br (ix1 d)) (fun a c => wa (ix2 a c)) (fun c o' => wg (ix2 c o'))
          (fun o' => bg (ix1 o')) (fun j => pos (ix3 b n j)) (fun k j => np (ix4 b n k j))
          (fun k d => nf (ix4 b n k d)) o := rfl

/-- The greatest score is at least the starting value, so taking the maximum with it again changes nothing. -/
theorem max_ninf_maxOver {ι : Type} [Fintype ι] (a : EReal) (f : ι → EReal) : max a (maxOver a f) = maxOver a f :=
  max_eq_right ((maxOver_le_iff a f _).1 le_rfl).1

end Cert.Randla

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibMidAxis.lean ====
/-
  Rank-3 arrays `[a, b, c]` — `a` rows, each with `b` members, each member with `c` channels — read at an index.

  A per-row vector `[a, c]` is viewed `[a, 1, c]` and broadcast over the members; a per-member scalar `[a, b]` is
  viewed `[a, b, 1]`.  A sum along the last axis reads, at `(r, k)`, the sum of member `k`'s channels; a sum or a
  maximum along the middle axis reads, at `(r, d)`, the sum or the greatest of channel `d` over the row's members.
  All of it at any extents, on the extended reals where a reduction is involved.
-/
import Idealize.ShloMosaic.PureOps.Ideal.Laws
import Idealize.ShloMosaic.Lib.ValueIdx
import Idealize.ShloMosaic.Lib.ValueLayout
import Idealize.ShloMosaic.Lib.Pipeline.Value
import proofs.«109014_j71717363908926_2_alg».proof.Proof.LibPoolFold

noncomputable section

open scoped BigOperators

namespace Cert.MidAxis

open Idealize.ShloMosaic Idealize.ShloMosaic.ValueIdx Cert.PoolFold

variable {α : Type}

/-- `[a, c]` viewed `[a, 1, c]`: entry `(r, u, j)` is entry `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_two, Shape.rowMajor_val_three]
    show r.val * c + j.val = (r.val * 1 + u.val) * c + j.val
    rw [hu, Nat.mul_one, Nat.add_zero])

/-- `[a, 1, c]` broadcast over `b` members: entry `(r, k, j)` is entry `(r, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (j : Fin c) :
    broadcastTo ⟨3, ![a, b, c]⟩ x h (ix3 r k j) = x (ix3 r (0 : Fin 1) j) := by
  refine broadcastTo_apply x h (ix3 r k j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- `[a, b]` viewed `[a, b, 1]`: entry `(r, k, u)` is entry `(r, k)`. -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_two, Shape.rowMajor_val_three]
    show r.val * b + k.val = (r.val * b + k.val) * 1 + u.val
    rw [hu, Nat.mul_one, Nat.add_zero])

/-- The sum along the last axis reads, at `(r, k)`, the sum of member `k`'s channels. -/
theorem sumLast_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (r : Fin a) (k : Fin b) :
    multiReduction .add [2] ⟨2, ![a, b]⟩ src 0x00000000#32 h hφ hacc (ix2 r k) = ∑ j : Fin c, src (ix3 r k j) := by
  refine (Ideal.multiReduction_add_single src 0x00000000#32 h hφ hacc (ix2 r k)).trans ?_
  refine Finset.sum_congr rfl fun j _ => congrArg src (funext fun ax => Fin.ext ?_)
  match ax with
  | ⟨0, _⟩ => rfl
  | ⟨1, _⟩ => rfl
  | ⟨2, _⟩ => rfl

/-- The sum along the middle axis reads, at `(r, d)`, the sum of channel `d` over the row's members. -/
theorem sumMid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (r : Fin a) (d : Fin c) :
    multiReduction .add [1] ⟨2, ![a, c]⟩ src 0x00000000#32 h hφ hacc (ix2 r d) = ∑ k : Fin b, src (ix3 r k d) := by
  refine (Ideal.multiReduction_add_single src 0x00000000#32 h hφ hacc (ix2 r d)).trans ?_
  refine Finset.sum_congr rfl fun k _ => congrArg src (funext fun ax => Fin.ext ?_)
  match ax with
  | ⟨0, _⟩ => rfl
  | ⟨1, _⟩ => rfl
  | ⟨2, _⟩ => rfl

/-- The maximum along the middle axis, started from -∞ (the word `0xFF800000`), reads, at `(r, d)`, the greatest
    of -∞ and channel `d` of the row's members. -/
theorem maxMid_apply {a b c : ℕ} (src : FVec Ideal ⟨3, ![a, b, c]⟩ .f32)
    (h : (⟨3, ![a, b, c]⟩ : Shape).Reduces [1] ⟨2, ![a, c]⟩) (hφ : FKind.Formats .f32)
    (hacc : (0xFF800000#32 : BitVec 32) = 0xFF800000#32) (r : Fin a) (d : Fin c) :
    multiReduction .maximumf [1] ⟨2, ![a, c]⟩ src 0xFF800000#32 h hφ hacc (ix2 r d)
      = maxOver (Ideal.ofBits .f32 0xFF800000#32) (fun k : Fin b => src (ix3 r k d)) := by
  refine (Ideal.multiReduction_maximumf_single src 0xFF800000#32 h hφ hacc (ix2 r d)).trans ?_
  unfold maxOver
  refine congrArg (fun g => (Finset.univ : Finset (Fin b)).fold max (Ideal.ofBits .f32 0xFF800000#32) g) (funext fun k => ?_)
  refine congrArg src (funext fun ax => Fin.ext ?_)
  match ax with
  | ⟨0, _⟩ => rfl
  | ⟨1, _⟩ => rfl
  | ⟨2, _⟩ => rfl

end Cert.MidAxis

end
-- ==== Proof.KernelFeat.lean ====
/-
  The neighbour features the kernel body forms, read at an index.

  Row `r` of a block holds one query point; member `k` of the row is its `k`-th neighbour.  The body lays the
  point's position beside each neighbour's, subtracts, takes the length of the difference, and joins the ten numbers
  (`encv`); it views the `512 · 16` (row, member) pairs as `8192` rows, multiplies by the position layer's weights,
  adds the bias row, rectifies, views the result by (row, member) again and joins it with the neighbour's own
  features.  Read at `(r, k, c)` this is `feat` of the row's position, the member's position and the member's feature.
-/
import proofs.«109014_j71717363908926_2_alg».proof.Proof.Gen.KernelIdeal.Skeleton
import proofs.«109014_j71717363908926_2_alg».proof.Proof.Spec
import proofs.«109014_j71717363908926_2_alg».proof.Proof.LibDense
import proofs.«109014_j71717363908926_2_alg».proof.Proof.LibRowBlocks
import proofs.«109014_j71717363908926_2_alg».proof.Proof.LibMidAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Randla.Kernel

open Cert.KernelIdeal Cert.KernelIdeal.Gen Idealize.ShloMosaic Idealize.ShloMosaic.ValueIdx
open Cert.Dense Cert.RowBlocks Cert.MidAxis Cert.PoolFold

variable (x0 : Vec Ideal S1x512x3 .f32) (x1 : Vec Ideal S1x512x16x3 .f32) (x2 : Vec Ideal S1x512x16x64 .bf16)
  (x3 : Vec Ideal S10x64 .f32) (x4 : Vec Ideal S64 .f32)

/-- The point's position beside each of its neighbours. -/
def cen : FVec Ideal S512x16x3 .f32 :=
  broadcastTo S512x16x3 (shapeCast S512x1x3 (shapeCast S512x1x3 (shapeCast S512x3 x0 shapeCasts_S1x512x3_S512x3)
    shapeCasts_S512x3_S512x1x3) shapeCasts_S512x1x3_S512x1x3) broadcasts_S512x1x3_S512x16x3

/-- The neighbours' positions. -/
def nbr : FVec Ideal S512x16x3 .f32 := shapeCast S512x16x3 x1 shapeCasts_S1x512x16x3_S512x16x3

/-- The length of each difference. -/
def dist : FVec Ideal S512x16x1 .f32 :=
  sqrt (shapeCast S512x16x1 (multiReduction .add [2] S512x16 (mulf (subf (nbr x1) (cen x0)) (subf (nbr x1) (cen x0)))
    0x00000000#32 reduces_S512x16x3_S512x16 (.inl rfl) rfl) shapeCasts_S512x16_S512x16x1)

/-- The four groups of position features, in order. -/
def encPieces : List ((s : Shape) × (s.Idx → Ideal .f32)) :=
  [⟨S512x16x3, cen x0⟩, ⟨S512x16x3, nbr x1⟩, ⟨S512x16x3, subf (nbr x1) (cen x0)⟩, ⟨S512x16x1, dist x0 x1⟩]

/-- The ten position features of every (point, neighbour) pair. -/
def encv : FVec Ideal S512x16x10 .f32 :=
  concatenate S512x16x10 2 (encPieces x0 x1) concatenates_S512x16x3_S512x16x3_S512x16x3_S512x16x1_S512x16x10_d2

theorem cen_apply (r : Fin 512) (k : Fin 16) (j : Fin 3) : cen x0 (ix3 r k j) = x0 (ix3 (0 : Fin 1) r j) := by
  unfold cen
  refine (broadcastTo_a1c_abc_apply _ broadcasts_S512x1x3_S512x16x3 r k j).trans ?_
  rw [shapeCast_self]
  exact (shapeCast_ac_a1c_apply _ shapeCasts_S512x3_S512x1x3 r (0 : Fin 1) j).trans
    (shapeCast_1ab_ab_apply x0 shapeCasts_S1x512x3_S512x3 r j)

theorem nbr_apply (r : Fin 512) (k : Fin 16) (j : Fin 3) : nbr x1 (ix3 r k j) = x1 (ix4 (0 : Fin 1) r k j) :=
  shapeCast_1abc_abc_apply x1 shapeCasts_S1x512x16x3_S512x16x3 r k j

theorem dist_apply (r : Fin 512) (k : Fin 16) (u : Fin 1) :
    dist x0 x1 (ix3 r k u) = Ideal.sqrt (∑ j : Fin 3,
      (x1 (ix4 (0 : Fin 1) r k j) - x0 (ix3 (0 : Fin 1) r j)) * (x1 (ix4 (0 : Fin 1) r k j) - x0 (ix3 (0 : Fin 1) r j))) := by
  unfold dist
  show Ideal.sqrt (shapeCast S512x16x1 _ shapeCasts_S512x16_S512x16x1 (ix3 r k u)) = _
  refine congrArg Ideal.sqrt ?_
  refine (shapeCast_ab_ab1_apply _ shapeCasts_S512x16_S512x16x1 r k u).trans ?_
  refine (sumLast_apply _ reduces_S512x16x3_S512x16 (.inl rfl) rfl r k).trans ?_
  refine Finset.sum_congr rfl fun j _ => ?_
  show (nbr x1 (ix3 r k j) - cen x0 (ix3 r k j)) * (nbr x1 (ix3 r k j) - cen x0 (ix3 r k j)) = _
  rw [nbr_apply, cen_apply]

theorem encv_apply (r : Fin 512) (k : Fin 16) (e : Fin 10) :
    encv x0 x1 (ix3 r k e) = enc (fun j => x0 (ix3 (0 : Fin 1) r j)) (fun j => x1 (ix4 (0 : Fin 1) r k j)) e := by
  unfold encv
  by_cases h3 : e.val < 3
  · rw [enc_center _ _ e ⟨e.val, h3⟩ rfl]
    refine (concatenate_apply_piece (t := S512x16x10) 2 (encPieces x0 x1) concatenates_S512x16x3_S512x16x3_S512x16x3_S512x16x1_S512x16x10_d2 (ix3 r k e)
      0 (by simp [encPieces]) S512x16x3 (cen x0) rfl rfl 0 rfl (ix3 r k (⟨e.val, h3⟩ : Fin 3)) (fun b hb => ?_) ?_).trans
      (cen_apply x0 r k _)
    · match b, hb with
      | ⟨0, _⟩, _ => rfl
      | ⟨1, _⟩, _ => rfl
      | ⟨2, _⟩, hb => exact absurd rfl hb
    · exact Nat.zero_add _
  by_cases h6 : e.val < 6
  · rw [enc_nbr _ _ e ⟨e.val - 3, by omega⟩ (by show e.val = 3 + (e.val - 3); omega)]
    refine (concatenate_apply_piece (t := S512x16x10) 2 (encPieces x0 x1) concatenates_S512x16x3_S512x16x3_S512x16x3_S512x16x1_S512x16x10_d2 (ix3 r k e)
      1 (by simp [encPieces]) S512x16x3 (nbr x1) rfl rfl 3 rfl (ix3 r k (⟨e.val - 3, by omega⟩ : Fin 3)) (fun b hb => ?_) ?_).trans
      (nbr_apply x1 r k _)
    · match b, hb with
      | ⟨0, _⟩, _ => rfl
      | ⟨1, _⟩, _ => rfl
      | ⟨2, _⟩, hb => exact absurd rfl hb
    · show 3 + (e.val - 3) = e.val
      omega
  by_cases h9 : e.val < 9
  · rw [enc_rel _ _ e ⟨e.val - 6, by omega⟩ (by show e.val = 6 + (e.val - 6); omega)]
    refine (concatenate_apply_piece (t := S512x16x10) 2 (encPieces x0 x1) concatenates_S512x16x3_S512x16x3_S512x16x3_S512x16x1_S512x16x10_d2 (ix3 r k e)
      2 (by simp [encPieces]) S512x16x3 (subf (nbr x1) (cen x0)) rfl rfl 6 rfl (ix3 r k (⟨e.val - 6, by omega⟩ : Fin 3))
      (fun b hb => ?_) ?_).trans ?_
    · match b, hb with
      | ⟨0, _⟩, _ => rfl
      | ⟨1, _⟩, _ => rfl
      | ⟨2, _⟩, hb => exact absurd rfl hb
    · show 6 + (e.val - 6) = e.val
      omega
    · show nbr x1 (ix3 r k _) - cen x0 (ix3 r k _) = _
      rw [nbr_apply, cen_apply]
  · rw [enc_dist _ _ e (by have := e.isLt; omega)]
    refine (concatenate_apply_piece (t := S512x16x10) 2 (encPieces x0 x1) concatenates_S512x16x3_S512x16x3_S512x16x3_S512x16x1_S512x16x10_d2 (ix3 r k e)
      3 (by simp [encPieces]) S512x16x1 (dist x0 x1) rfl rfl 9 rfl (ix3 r k (0 : Fin 1)) (fun b hb => ?_) ?_).trans
      (dist_apply x0 x1 r k _)
    · match b, hb with
      | ⟨0, _⟩, _ => rfl
      | ⟨1, _⟩, _ => rfl
      | ⟨2, _⟩, hb => exact absurd rfl hb
    · show 9 + 0 = e.val
      have := e.isLt
      omega

/-- The (row, member) pair as one of the `8192` rows of the flattened view. -/
def flat (r : Fin 512) (k : Fin 16) : Fin 8192 := ⟨r.val * 16 + k.val, by have := r.isLt; have := k.isLt; omega⟩

/-- The position layer on the flattened pairs. -/
def rpv : FVec Ideal S8192x64 .f32 :=
  maximumf (addf (matmul dot_S8192x10_S10x64_S8192x64_1_0_0_1_n_n none
      (truncf .bf16 (shapeCast S8192x10 (encv x0 x1) shapeCasts_S512x16x10_S8192x10) bitsLt_bf16_f32)
      (truncf .bf16 x3 bitsLt_bf16_f32) (constant S8192x64 .f32 0x00000000#32))
    (broadcastTo S8192x64 (shapeCast S1x64 x4 shapeCasts_S64_S1x64) broadcasts_S1x64_S8192x64))
    (broadcast S8192x64 (Scalar.ofBits .f32 0x00000000#32))

theorem rpv_apply (r : Fin 512) (k : Fin 16) (d : Fin 64) :
    rpv x0 x1 x3 x4 (ix2 (flat r k) d)
      = rp (fun e d => x3 (ix2 e d)) (fun d => x4 (ix1 d)) (fun j => x0 (ix3 (0 : Fin 1) r j))
          (fun j => x1 (ix4 (0 : Fin 1) r k j)) d := by
  unfold rpv
  rw [matmul_zero_eq_mm dot_S8192x10_S10x64_S8192x64_1_0_0_1_n_n rfl rfl rfl rfl rfl rfl, shapeCast_row,
    vecReluBias]
  show max ((∑ e : Fin 10, shapeCast S8192x10 (encv x0 x1) shapeCasts_S512x16x10_S8192x10 (ix2 (flat r k) e) * x3 (ix2 e d))
    + x4 (ix1 d)) 0 = _
  unfold rp
  refine congrArg (fun s => max (s + x4 (ix1 d)) 0) (Finset.sum_congr rfl fun e _ => ?_)
  rw [shapeCast_merge_apply (encv x0 x1) shapeCasts_S512x16x10_S8192x10 r k e (flat r k) rfl, encv_apply]

/-- The kernel's neighbour features, at `(r, k, c)`. -/
theorem pay2_apply (r : Fin 512) (k : Fin 16) (c : Fin 128) :
    k0_pay2 x0 x1 x2 x3 x4 (ix3 r k c)
      = feat (fun e d => x3 (ix2 e d)) (fun d => x4 (ix1 d)) (fun j => x0 (ix3 (0 : Fin 1) r j))
          (fun j => x1 (ix4 (0 : Fin 1) r k j)) (fun d => x2 (ix4 (0 : Fin 1) r k d)) c := by
  show concatenate S512x16x128 2 [⟨S512x16x64, shapeCast S512x16x64 (rpv x0 x1 x3 x4) shapeCasts_S8192x64_S512x16x64⟩,
    ⟨S512x16x64, extf .f32 (shapeCast S512x16x64 x2 shapeCasts_S1x512x16x64_S512x16x64) bitsLt_bf16_f32⟩]
    concatenates_S512x16x64_S512x16x64_S512x16x128_d2 (ix3 r k c) = _
  by_cases hc : c.val < 64
  · rw [feat_lo _ _ _ _ _ c ⟨c.val, hc⟩ rfl]
    refine (concatenate_pair_apply_left _ _ _ concatenates_S512x16x64_S512x16x64_S512x16x128_d2 (ix3 r k c) rfl
      (ix3 r k (⟨c.val, hc⟩ : Fin 64)) (fun b => ?_)).trans ?_
    · match b with
      | ⟨0, _⟩ => rfl
      | ⟨1, _⟩ => rfl
      | ⟨2, _⟩ => rfl
    · rw [shapeCast_split_apply (rpv x0 x1 x3 x4) shapeCasts_S8192x64_S512x16x64 r k _ (flat r k) rfl, rpv_apply]
  · rw [feat_hi _ _ _ _ _ c ⟨c.val - 64, by have := c.isLt; omega⟩ (by show c.val = 64 + (c.val - 64); omega)]
    refine (concatenate_pair_apply_right _ _ _ concatenates_S512x16x64_S512x16x64_S512x16x128_d2 (ix3 r k c) rfl rfl
      (ix3 r k (⟨c.val - 64, by have := c.isLt; omega⟩ : Fin 64)) (fun b hb => ?_) ?_).trans ?_
    · match b, hb with
      | ⟨0, _⟩, _ => rfl
      | ⟨1, _⟩, _ => rfl
      | ⟨2, _⟩, hb => exact absurd rfl hb
    · show (c.val - 64) + 64 = c.val
      omega
    · exact shapeCast_1abc_abc_apply x2 shapeCasts_S1x512x16x64_S512x16x64 r k _

end Cert.Randla.Kernel

end
-- ==== Proof.KernelPool.lean ====
/-
  The kernel body's scores, softmax pooling and last layer, read at an index.

  With the neighbour features `f (r, k, c)` of row `r`, member `k` in hand, the body views the (row, member) pairs
  as `8192` rows again and multiplies by the attention weights: the score of member `k` in channel `c`.  Along the
  members it takes the greatest score of each channel, the exponentials of the scores less that greatest, their sum,
  the quotients, and the sum of the features weighted by the quotients: one 128-vector per row.  A last product with
  a bias row and a rectification give the row's outputs, which the body stores transposed, channel by row.
-/
import proofs.«109014_j71717363908926_2_alg».proof.Proof.KernelFeat

noncomputable section

open scoped BigOperators

namespace Cert.Randla.Kernel

open Cert.KernelIdeal Cert.KernelIdeal.Gen Idealize.ShloMosaic Idealize.ShloMosaic.ValueIdx
open Cert.Dense Cert.RowBlocks Cert.MidAxis Cert.PoolFold

variable (x0 : Vec Ideal S1x512x3 .f32) (x1 : Vec Ideal S1x512x16x3 .f32) (x2 : Vec Ideal S1x512x16x64 .bf16)
  (x3 : Vec Ideal S10x64 .f32) (x4 : Vec Ideal S64 .f32) (x5 x6 : Vec Ideal S128x128 .f32) (x7 : Vec Ideal S128 .f32)

/-- The scores: the features of member `k` of row `r` against column `c` of the attention weights. -/
theorem pay3_apply (r : Fin 512) (k : Fin 16) (c : Fin 128) :
    k0_pay3 x0 x1 x2 x3 x4 x5 (ix3 r k c)
      = score (fun a c => x5 (ix2 a c)) (fun a => k0_pay2 x0 x1 x2 x3 x4 (ix3 r k a)) c := by
  show shapeCast S512x16x128 (matmul dot_S8192x128_S128x128_S8192x128_1_0_0_1_n_n none
      (truncf .bf16 (shapeCast S8192x128 (k0_pay2 x0 x1 x2 x3 x4) shapeCasts_S512x16x128_S8192x128) bitsLt_bf16_f32)
      (truncf .bf16 x5 bitsLt_bf16_f32) (constant S8192x128 .f32 0x00000000#32)) shapeCasts_S8192x128_S512x16x128
      (ix3 r k c) = _
  rw [matmul_zero_eq_mm dot_S8192x128_S128x128_S8192x128_1_0_0_1_n_n rfl rfl rfl rfl rfl rfl]
  refine (shapeCast_split_apply _ shapeCasts_S8192x128_S512x16x128 r k c (flat r k) rfl).trans ?_
  show ∑ a : Fin 128, shapeCast S8192x128 (k0_pay2 x0 x1 x2 x3 x4) shapeCasts_S512x16x128_S8192x128 (ix2 (flat r k) a)
    * x5 (ix2 a c) = _
  unfold score
  refine Finset.sum_congr rfl fun a _ => ?_
  rw [shapeCast_merge_apply (k0_pay2 x0 x1 x2 x3 x4) shapeCasts_S512x16x128_S8192x128 r k a (flat r k) rfl]

/-- The greatest score of channel `c` among the members of row `r`. -/
theorem pay4_apply (r : Fin 512) (u : Fin 1) (c : Fin 128) :
    k0_pay4 x0 x1 x2 x3 x4 x5 (ix3 r u c) = maxOver ninf (fun k : Fin 16 => k0_pay3 x0 x1 x2 x3 x4 x5 (ix3 r k c)) := by
  show shapeCast S512x1x128 (multiReduction .maximumf [1] S512x128 (k0_pay3 x0 x1 x2 x3 x4 x5) 0xFF800000#32
      reduces_S512x16x128_S512x128 (.inl rfl) rfl) shapeCasts_S512x128_S512x1x128 (ix3 r u c) = _
  exact (shapeCast_ac_a1c_apply _ shapeCasts_S512x128_S512x1x128 r u c).trans
    (maxMid_apply _ reduces_S512x16x128_S512x128 (.inl rfl) rfl r c)

variable (v28 v34 : FVec Ideal S512x16x128 .f32) (v36 : FVec Ideal S512x1x128 .f32) (v46 : Vec Ideal S128x128 .f32)
  (v47 : Vec Ideal S128 .f32)

/-- The exponentials of the scores less each channel's greatest. -/
def exv : FVec Ideal S512x16x128 .f32 :=
  exp (subf v34 (broadcastTo S512x16x128 v36 broadcasts_S512x1x128_S512x16x128))

theorem exv_apply (r : Fin 512) (k : Fin 16) (c : Fin 128) :
    exv v34 v36 (ix3 r k c) = Ideal.exp (v34 (ix3 r k c) - v36 (ix3 r (0 : Fin 1) c)) := by
  show Ideal.exp (v34 (ix3 r k c) - broadcastTo S512x16x128 v36 broadcasts_S512x1x128_S512x16x128 (ix3 r k c)) = _
  exact congrArg (fun t => Ideal.exp (v34 (ix3 r k c) - t))
    (broadcastTo_a1c_abc_apply v36 broadcasts_S512x1x128_S512x16x128 r k c)

/-- The weighted average of the members' features. -/
def aggv : FVec Ideal S512x128 .f32 :=
  multiReduction .add [1] S512x128 (mulf v28 (divf (exv v34 v36) (broadcastTo S512x16x128
    (shapeCast S512x1x128 (multiReduction .add [1] S512x128 (exv v34 v36) 0x00000000#32 reduces_S512x16x128_S512x128
      (.inl rfl) rfl) shapeCasts_S512x128_S512x1x128) broadcasts_S512x1x128_S512x16x128))) 0x00000000#32
    reduces_S512x16x128_S512x128 (.inl rfl) rfl

theorem aggv_apply (r : Fin 512) (c : Fin 128) :
    aggv v28 v34 v36 (ix2 r c) = ∑ k : Fin 16, v28 (ix3 r k c) *
      Ideal.div (Ideal.exp (v34 (ix3 r k c) - v36 (ix3 r (0 : Fin 1) c)))
        (∑ k' : Fin 16, Ideal.exp (v34 (ix3 r k' c) - v36 (ix3 r (0 : Fin 1) c))) := by
  unfold aggv
  refine (sumMid_apply _ reduces_S512x16x128_S512x128 (.inl rfl) rfl r c).trans ?_
  refine Finset.sum_congr rfl fun k _ => ?_
  show v28 (ix3 r k c) * Ideal.div (exv v34 v36 (ix3 r k c)) (broadcastTo S512x16x128 _ broadcasts_S512x1x128_S512x16x128
    (ix3 r k c)) = _
  rw [exv_apply]
  refine congrArg (fun t => v28 (ix3 r k c) * Ideal.div _ t) ?_
  refine (broadcastTo_a1c_abc_apply _ broadcasts_S512x1x128_S512x16x128 r k c).trans ?_
  refine (shapeCast_ac_a1c_apply _ shapeCasts_S512x128_S512x1x128 r (0 : Fin 1) c).trans ?_
  refine (sumMid_apply _ reduces_S512x16x128_S512x128 (.inl rfl) rfl r c).trans ?_
  exact Finset.sum_congr rfl fun k' _ => exv_apply v34 v36 r k' c

/-- What the body stores, at channel `o` of row `r`. -/
theorem pay1_apply (o : Fin 128) (r : Fin 512) :
    k0_pay1 v28 v34 v36 v46 v47 (ix3 (0 : Fin 1) o r)
      = out (fun c o' => v46 (ix2 c o')) (fun o' => v47 (ix1 o')) (fun c => aggv v28 v34 v36 (ix2 r c)) o := by
  show shapeCast S1x128x512 (transpose S128x512 [1, 0] (maximumf (addf (matmul dot_S512x128_S128x128_S512x128_1_0_0_1_n_n none
      (truncf .bf16 (aggv v28 v34 v36) bitsLt_bf16_f32) (truncf .bf16 v46 bitsLt_bf16_f32)
      (constant S512x128 .f32 0x00000000#32)) (broadcastTo S512x128 (shapeCast S1x128 v47 shapeCasts_S128_S1x128)
      broadcasts_S1x128_S512x128)) (broadcast S512x128 (Scalar.ofBits .f32 0x00000000#32)))
      transposes_S512x128_p1_0_S128x512) shapeCasts_S128x512_S1x128x512 (ix3 (0 : Fin 1) o r) = _
  rw [matmul_zero_eq_mm dot_S512x128_S128x128_S512x128_1_0_0_1_n_n rfl rfl rfl rfl rfl rfl, shapeCast_row, vecReluBias]
  refine (shapeCast_ab_1ab_apply _ shapeCasts_S128x512_S1x128x512 (0 : Fin 1) o r).trans ?_
  refine (transpose_ix2_apply _ transposes_S512x128_p1_0_S128x512 o r).trans ?_
  rfl

/-- The kernel body's payload: channel `o` of row `r` is `point` of the row's position, its members' positions and
    their features. -/
theorem pay_apply (o : Fin 128) (r : Fin 512) :
    k0_pay1 (F := Ideal) (k0_pay2 x0 x1 x2 x3 x4) (k0_pay3 x0 x1 x2 x3 x4 x5) (k0_pay4 x0 x1 x2 x3 x4 x5) x6 x7
        (ix3 (0 : Fin 1) o r)
      = point (fun e d => x3 (ix2 e d)) (fun d => x4 (ix1 d)) (fun a c => x5 (ix2 a c)) (fun c o' => x6 (ix2 c o'))
          (fun o' => x7 (ix1 o')) (fun j => x0 (ix3 (0 : Fin 1) r j)) (fun k j => x1 (ix4 (0 : Fin 1) r k j))
          (fun k d => x2 (ix4 (0 : Fin 1) r k d)) o := by
  rw [pay1_apply]
  unfold point
  refine congrArg (fun a => out _ _ a o) (funext fun c => ?_)
  rw [aggv_apply]
  unfold pool ex top
  simp only [pay4_apply, pay3_apply, pay2_apply]

end Cert.Randla.Kernel

end
-- ==== Proof.Blocks.lean ====
/-
  From the blocks to the array.  The grid is 4 × 32: point `(b, nb)` reads rows `512 · nb … 512 · nb + 511` of batch `b` of
  the positions, of the gathered neighbour positions and of the gathered neighbour features, the five weight arrays whole, and
  writes columns `512 · nb … 512 · nb + 511` of batch `b` of the result.  Given what the body leaves at an entry of its
  block — one point's 128 outputs, from the entries of the eight blocks (`PayIs`) — each written block is the same block of
  `G` of the whole arrays, the blocks cover the result, and so the result array after the run is `G`.  The two gathered
  arrays are the host's gathers before the region, kept as they stand; on the extended reals the narrowing of the features
  before their gather changes nothing.
-/
import proofs.«109014_j71717363908926_2_alg».proof.Proof.Gen.KernelIdeal.Value
import proofs.«109014_j71717363908926_2_alg».proof.Proof.Gen.ReferenceIdeal.Read
import proofs.«109014_j71717363908926_2_alg».proof.Proof.Spec
import Idealize.ShloMosaic.Lib.Pipeline.Value
import Idealize.ShloMosaic.Lib.ValueIdx
import Idealize.ShloMosaic.Lib.Tactic

set_option maxRecDepth 16384

noncomputable section

namespace Cert.Randla.Blocks

open Cert.KernelIdeal Cert.KernelIdeal.Gen Idealize.ShloMosaic Idealize.ShloMosaic.TcCoe Idealize.SL.Sem
open Idealize.ShloMosaic.ValueIdx
open Idealize.ShloMosaic.Pipeline (Dat)

section

variable (m : (ℓ : Loc nD τ sig) → Buf (Elt Ideal) ℓ)

/-- What the body's payload is at an index of its block: one point's 128 outputs, from the eight blocks. -/
def PayIs : Prop := ∀ (x0 : Vec Ideal S1x512x3 .f32) (x1 : Vec Ideal S1x512x16x3 .f32) (x2 : Vec Ideal S1x512x16x64 .bf16)
    (x3 : Vec Ideal S10x64 .f32) (x4 : Vec Ideal S64 .f32) (x5 x6 : Vec Ideal S128x128 .f32) (x7 : Vec Ideal S128 .f32)
    (o : Fin 128) (r : Fin 512),
  k0_pay1 (F := Ideal) (k0_pay2 x0 x1 x2 x3 x4) (k0_pay3 x0 x1 x2 x3 x4 x5) (k0_pay4 x0 x1 x2 x3 x4 x5) x6 x7 (ix3 (0 : Fin 1) o r)
    = Cert.Randla.point (fun e d => x3 (ix2 e d)) (fun d => x4 (ix1 d)) (fun a c => x5 (ix2 a c)) (fun c o' => x6 (ix2 c o'))
        (fun o' => x7 (ix1 o')) (fun j => x0 (ix3 (0 : Fin 1) r j)) (fun k j => x1 (ix4 (0 : Fin 1) r k j))
        (fun k d => x2 (ix4 (0 : Fin 1) r k d)) o

/-! ## The arrays the region finds -/

/-- The gathered neighbour positions, as the host operations before the region leave them. -/
theorem V_nbrPos (c : Dev nD) :
    (V m c main_v8 : S4x16384x16x3.Idx → EReal)
      = Cert.ReferenceIdeal.Read.val_main_v7 (F := Ideal) (m ((c : Thread nD τ).loc main_arg1)) (m ((c : Thread nD τ).loc main_arg2)) := by
  dsimp only [Gen.V, Gen.hostOps0]
  after_results
  rfl

/-- The gathered neighbour features: on the extended reals the narrowing of the transposed features is the identity. -/
theorem V_nbrFeat (c : Dev nD) :
    (V m c main_v15 : S4x16384x16x64.Idx → EReal)
      = Cert.ReferenceIdeal.Read.val_main_v14 (F := Ideal) (m ((c : Thread nD τ).loc main_arg0)) (m ((c : Thread nD τ).loc main_arg2)) := by
  dsimp only [Gen.V, Gen.hostOps0]
  after_results
  rfl

/-- The whole result: `G` of the positions, the two gathered arrays and the weights. -/
abbrev result (c : Dev nD) : S4x128x16384.Idx → EReal :=
  Cert.Randla.G (m ((c : Thread nD τ).loc main_arg1))
    (Cert.ReferenceIdeal.Read.val_main_v7 (F := Ideal) (m ((c : Thread nD τ).loc main_arg1)) (m ((c : Thread nD τ).loc main_arg2)))
    (Cert.ReferenceIdeal.Read.val_main_v14 (F := Ideal) (m ((c : Thread nD τ).loc main_arg0)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The index maps, decided over the 128 grid points -/

theorem zero3 : (![0, 0, 0] : Fin 3 → Nat) = fun _ => 0 := funext fun a => by fin_cases a <;> rfl
theorem zero4 : (![0, 0, 0, 0] : Fin 4 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The three blocked inputs move with the output's block: batch with batch, rows with columns; the five weights are whole;
    the output's block index stays in range. -/
theorem idx_facts : ∀ t : Fin cfg0.N,
    win0_0.index t (0 : Fin 3) = win0_8.index t (0 : Fin 3) ∧ win0_0.index t (1 : Fin 3) = win0_8.index t (2 : Fin 3)
    ∧ win0_0.index t (2 : Fin 3) = 0
    ∧ win0_1.index t (0 : Fin 4) = win0_8.index t (0 : Fin 3) ∧ win0_1.index t (1 : Fin 4) = win0_8.index t (2 : Fin 3)
    ∧ win0_1.index t (2 : Fin 4) = 0 ∧ win0_1.index t (3 : Fin 4) = 0
    ∧ win0_2.index t (0 : Fin 4) = win0_8.index t (0 : Fin 3) ∧ win0_2.index t (1 : Fin 4) = win0_8.index t (2 : Fin 3)
    ∧ win0_2.index t (2 : Fin 4) = 0 ∧ win0_2.index t (3 : Fin 4) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (1 : Fin 3) = 0 ∧ win0_8.index t (0 : Fin 3) ≤ 3 ∧ win0_8.index t (2 : Fin 3) ≤ 31 :=
  (by decide +kernel : ∀ t : Fin grid0.N, _)

/-- Every block of the output is some point's. -/
theorem idx_onto : ∀ (q0 : Fin 4) (q2 : Fin 32), ∃ t : Fin cfg0.N, win0_8.index t = ![q0.val, 0, q2.val] :=
  (by decide +kernel : ∀ (q0 : Fin 4) (q2 : Fin 32), ∃ t : Fin grid0.N, win0_8.index t = ![q0.val, 0, q2.val])

/-! ## Each input block is its array read where the output's block says -/

/-- The positions' block at a point: row `r` of the block is point `512 · nb + r` of batch `b`. -/
theorem blk_pos (c : Dev nD) (t : Fin cfg0.N) (r : Fin 512) (j : Fin 3) (b : Fin 4) (n : Fin 16384)
    (hb : b.val = win0_8.index t (0 : Fin 3)) (hn : n.val = win0_8.index t (2 : Fin 3) * 512 + r.val) :
    (iblk m c 0 t : Vec Ideal S1x512x3 .f32) (ix3 (0 : Fin 1) r j)
      = (m ((c : Thread nD τ).loc main_arg1) : S4x16384x3.Idx → EReal) (ix3 b n j) := by
  obtain ⟨e00, e01, e02, e10, e11, e12, e13, e20, e21, e22, e23, e30, e31, e40, e50, e51, e60, e61, e70, e81, l80, l82⟩ := idx_facts t
  unfold iblk
  rw [View.read_apply]
  show V m c main_arg1 _ = _
  rw [V_main_arg1]
  congr 1
  funext a
  apply Fin.ext
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 3 + 1 * j.val = j.val; omega

/-- The neighbour positions' block at a point. -/
theorem blk_nbrPos (c : Dev nD) (t : Fin cfg0.N) (r : Fin 512) (k : Fin 16) (j : Fin 3) (b : Fin 4) (n : Fin 16384)
    (hb : b.val = win0_8.index t (0 : Fin 3)) (hn : n.val = win0_8.index t (2 : Fin 3) * 512 + r.val) :
    (iblk m c 1 t : Vec Ideal S1x512x16x3 .f32) (ix4 (0 : Fin 1) r k j)
      = Cert.ReferenceIdeal.Read.val_main_v7 (F := Ideal) (m ((c : Thread nD τ).loc main_arg1)) (m ((c : Thread nD τ).loc main_arg2)) (ix4 b n k j) := by
  obtain ⟨e00, e01, e02, e10, e11, e12, e13, e20, e21, e22, e23, e30, e31, e40, e50, e51, e60, e61, e70, e81, l80, l82⟩ := idx_facts t
  unfold iblk
  rw [View.read_apply]
  show (V m c main_v8 : S4x16384x16x3.Idx → EReal) _ = _
  rw [V_nbrPos]
  congr 1
  funext a
  apply Fin.ext
  match a with
  | ⟨0, _⟩ => show win0_1.index t (0 : Fin 4) * 1 + 1 * 0 = b.val; omega
  | ⟨1, _⟩ => show win0_1.index t (1 : Fin 4) * 512 + 1 * r.val = n.val; omega
  | ⟨2, _⟩ => show win0_1.index t (2 : Fin 4) * 16 + 1 * k.val = k.val; omega
  | ⟨3, _⟩ => show win0_1.index t (3 : Fin 4) * 3 + 1 * j.val = j.val; omega

/-- The neighbour features' block at a point. -/
theorem blk_nbrFeat (c : Dev nD) (t : Fin cfg0.N) (r : Fin 512) (k : Fin 16) (d : Fin 64) (b : Fin 4) (n : Fin 16384)
    (hb : b.val = win0_8.index t (0 : Fin 3)) (hn : n.val = win0_8.index t (2 : Fin 3) * 512 + r.val) :
    (iblk m c 2 t : Vec Ideal S1x512x16x64 .bf16) (ix4 (0 : Fin 1) r k d)
      = Cert.ReferenceIdeal.Read.val_main_v14 (F := Ideal) (m ((c : Thread nD τ).loc main_arg0)) (m ((c : Thread nD τ).loc main_arg2)) (ix4 b n k d) := by
  obtain ⟨e00, e01, e02, e10, e11, e12, e13, e20, e21, e22, e23, e30, e31, e40, e50, e51, e60, e61, e70, e81, l80, l82⟩ := idx_facts t
  unfold iblk
  rw [View.read_apply]
  show (V m c main_v15 : S4x16384x16x64.Idx → EReal) _ = _
  rw [V_nbrFeat]
  congr 1
  funext a
  apply Fin.ext
  match a with
  | ⟨0, _⟩ => show win0_2.index t (0 : Fin 4) * 1 + 1 * 0 = b.val; omega
  | ⟨1, _⟩ => show win0_2.index t (1 : Fin 4) * 512 + 1 * r.val = n.val; omega
  | ⟨2, _⟩ => show win0_2.index t (2 : Fin 4) * 16 + 1 * k.val = k.val; omega
  | ⟨3, _⟩ => show win0_2.index t (3 : Fin 4) * 64 + 1 * d.val = d.val; omega

/-- The position layer's weights are staged whole. -/
theorem blk_wr (c : Dev nD) (t : Fin cfg0.N) :
    (iblk m c 3 t : Vec Ideal S10x64 .f32) = (m ((c : Thread nD τ).loc main_arg3) : S10x64.Idx → EReal) := by
  obtain ⟨e00, e01, e02, e10, e11, e12, e13, e20, e21, e22, e23, e30, e31, e40, e50, e51, e60, e61, e70, e81, l80, l82⟩ := idx_facts t
  funext x
  unfold iblk
  rw [View.read_apply]
  show V m c main_arg3 _ = _
  rw [V_main_arg3]
  congr 1
  funext a
  apply Fin.ext
  match a with
  | ⟨0, _⟩ => show win0_3.index t (0 : Fin 2) * 10 + 1 * (x 0).val = (x 0).val; omega
  | ⟨1, _⟩ => show win0_3.index t (1 : Fin 2) * 64 + 1 * (x 1).val = (x 1).val; omega

/-- The position layer's bias is staged whole. -/
theorem blk_br (c : Dev nD) (t : Fin cfg0.N) :
    (iblk m c 4 t : Vec Ideal S64 .f32) = (m ((c : Thread nD τ).loc main_arg4) : S64.Idx → EReal) := by
  obtain ⟨e00, e01, e02, e10, e11, e12, e13, e20, e21, e22, e23, e30, e31, e40, e50, e51, e60, e61, e70, e81, l80, l82⟩ := idx_facts t
  funext x
  unfold iblk
  rw [View.read_apply]
  show V m c main_arg4 _ = _
  rw [V_main_arg4]
  congr 1
  funext a
  apply Fin.ext
  match a with
  | ⟨0, _⟩ => show win0_4.index t (0 : Fin 1) * 64 + 1 * (x 0).val = (x 0).val; omega

/-- The score weights are staged whole. -/
theorem blk_wa (c : Dev nD) (t : Fin cfg0.N) :
    (iblk m c 5 t : Vec Ideal S128x128 .f32) = (m ((c : Thread nD τ).loc main_arg5) : S128x128.Idx → EReal) := by
  obtain ⟨e00, e01, e02, e10, e11, e12, e13, e20, e21, e22, e23, e30, e31, e40, e50, e51, e60, e61, e70, e81, l80, l82⟩ := idx_facts t
  funext x
  unfold iblk
  rw [View.read_apply]
  show V m c main_arg5 _ = _
  rw [V_main_arg5]
  congr 1
  funext a
  apply Fin.ext
  match a with
  | ⟨0, _⟩ => show win0_5.index t (0 : Fin 2) * 128 + 1 * (x 0).val = (x 0).val; omega
  | ⟨1, _⟩ => show win0_5.index t (1 : Fin 2) * 128 + 1 * (x 1).val = (x 1).val; omega

/-- The last layer's weights are staged whole. -/
theorem blk_wg (c : Dev nD) (t : Fin cfg0.N) :
    (iblk m c 6 t : Vec Ideal S128x128 .f32) = (m ((c : Thread nD τ).loc main_arg6) : S128x128.Idx → EReal) := by
  obtain ⟨e00, e01, e02, e10, e11, e12, e13, e20, e21, e22, e23, e30, e31, e40, e50, e51, e60, e61, e70, e81, l80, l82⟩ := idx_facts t
  funext x
  unfold iblk
  rw [View.read_apply]
  show V m c main_arg6 _ = _
  rw [V_main_arg6]
  congr 1
  funext a
  apply Fin.ext
  match a with
  | ⟨0, _⟩ => show win0_6.index t (0 : Fin 2) * 128 + 1 * (x 0).val = (x 0).val; omega
  | ⟨1, _⟩ => show win0_6.index t (1 : Fin 2) * 128 + 1 * (x 1).val = (x 1).val; omega

/-- The last layer's bias is staged whole. -/
theorem blk_bg (c : Dev nD) (t : Fin cfg0.N) :
    (iblk m c 7 t : Vec Ideal S128 .f32) = (m ((c : Thread nD τ).loc main_arg7) : S128.Idx → EReal) := by
  obtain ⟨e00, e01, e02, e10, e11, e12, e13, e20, e21, e22, e23, e30, e31, e40, e50, e51, e60, e61, e70, e81, l80, l82⟩ := idx_facts t
  funext x
  unfold iblk
  rw [View.read_apply]
  show V m c main_arg7 _ = _
  rw [V_main_arg7]
  congr 1
  funext a
  apply Fin.ext
  match a with
  | ⟨0, _⟩ => show win0_7.index t (0 : Fin 1) * 128 + 1 * (x 0).val = (x 0).val; omega

/-! ## What a point writes back is its block of the whole result -/

/-- One entry of a point's block, when the blocks are the arrays read at point `n` of batch `b`. -/
theorem block_point (hpay : PayIs) (x0 : Vec Ideal S1x512x3 .f32) (x1 : Vec Ideal S1x512x16x3 .f32) (x2 : Vec Ideal S1x512x16x64 .bf16)
    (x3 : Vec Ideal S10x64 .f32) (x4 : Vec Ideal S64 .f32) (x5 x6 : Vec Ideal S128x128 .f32) (x7 : Vec Ideal S128 .f32)
    (pos : S4x16384x3.Idx → EReal) (np : S4x16384x16x3.Idx → EReal) (nf : S4x16384x16x64.Idx → EReal)
    (wr : S10x64.Idx → EReal) (br : S64.Idx → EReal) (wa wg : S128x128.Idx → EReal) (bg : S128.Idx → EReal)
    (b : Fin 4) (o : Fin 128) (r : Fin 512) (n : Fin 16384)
    (h0 : ∀ j, x0 (ix3 (0 : Fin 1) r j) = pos (ix3 b n j))
    (h1 : ∀ k j, x1 (ix4 (0 : Fin 1) r k j) = np (ix4 b n k j))
    (h2 : ∀ k d, x2 (ix4 (0 : Fin 1) r k d) = nf (ix4 b n k d))
    (h3 : x3 = wr) (h4 : x4 = br) (h5 : x5 = wa) (h6 : x6 = wg) (h7 : x7 = bg) :
    k0_pay1 (F := Ideal) (k0_pay2 x0 x1 x2 x3 x4) (k0_pay3 x0 x1 x2 x3 x4 x5) (k0_pay4 x0 x1 x2 x3 x4 x5) x6 x7 (ix3 (0 : Fin 1) o r)
      = Cert.Randla.G pos np nf wr br wa wg bg (ix3 b o n) := by
  rw [hpay x0 x1 x2 x3 x4 x5 x6 x7 o r, Cert.Randla.G_apply]
  subst h3 h4 h5 h6 h7
  have e0 : (fun j => x0 (ix3 (0 : Fin 1) r j)) = fun j => pos (ix3 b n j) := funext h0
  have e1 : (fun k j => x1 (ix4 (0 : Fin 1) r k j)) = fun k j => np (ix4 b n k j) := funext fun k => funext (h1 k)
  have e2 : (fun k d => x2 (ix4 (0 : Fin 1) r k d)) = fun k d => nf (ix4 b n k d) := funext fun k => funext (h2 k)
  rw [e0, e1, e2]

/-- WHAT POINT `t` WRITES BACK is block `t` of the whole result. -/
theorem flushed_eq (hpay : PayIs) (c : Dev nD) (t : Fin cfg0.N) :
    (dats m 0 c).flushed 8 t = ((cfg0.win 8).blk t).view.read (Elt Ideal) (result m c) := by
  rw [Value.flushed8]
  unfold Gen.out0_8
  rw [View.canon_unit_zero zero3]
  simp only [View.ld_unit_zero (S := S1x512x3) zero3, View.ld_unit_zero (S := S1x512x16x3) zero4,
    View.ld_unit_zero (S := S1x512x16x64) zero4, View.ld_unit_zero (S := S10x64) zero2, View.ld_unit_zero (S := S64) zero1,
    View.ld_unit_zero (S := S128x128) zero2, View.ld_unit_zero (S := S128) zero1]
  obtain ⟨e00, e01, e02, e10, e11, e12, e13, e20, e21, e22, e23, e30, e31, e40, e50, e51, e60, e61, e70, e81, l80, l82⟩ := idx_facts t
  funext y
  have hy0 : (y 0).val < 1 := (y 0).isLt
  have hy1 : (y 1).val < 128 := (y 1).isLt
  have hy2 : (y 2).val < 512 := (y 2).isLt
  have hb : win0_8.index t (0 : Fin 3) < 4 := by omega
  have hn : win0_8.index t (2 : Fin 3) * 512 + (y 2).val < 16384 := by omega
  have ey : ((cfg0.win 8).xinj (grid0.coords t) y : S1x128x512.Idx) = ix3 (0 : Fin 1) ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have eo : (((cfg0.win 8).blk t).view.emb y : S4x128x16384.Idx)
      = ix3 (⟨win0_8.index t (0 : Fin 3), hb⟩ : Fin 4) ⟨(y 1).val, hy1⟩ ⟨win0_8.index t (2 : Fin 3) * 512 + (y 2).val, hn⟩ := by
    funext a
    apply Fin.ext
    match a with
    | ⟨0, _⟩ => show win0_8.index t (0 : Fin 3) * 1 + 1 * (y 0).val = win0_8.index t (0 : Fin 3); omega
    | ⟨1, _⟩ => show win0_8.index t (1 : Fin 3) * 128 + 1 * (y 1).val = (y 1).val; omega
    | ⟨2, _⟩ => show win0_8.index t (2 : Fin 3) * 512 + 1 * (y 2).val = win0_8.index t (2 : Fin 3) * 512 + (y 2).val; omega
  show k0_pay1 (F := Ideal) (k0_pay2 (iblk m c 0 t) (iblk m c 1 t) (iblk m c 2 t) (iblk m c 3 t) (iblk m c 4 t))
        (k0_pay3 (iblk m c 0 t) (iblk m c 1 t) (iblk m c 2 t) (iblk m c 3 t) (iblk m c 4 t) (iblk m c 5 t))
        (k0_pay4 (iblk m c 0 t) (iblk m c 1 t) (iblk m c 2 t) (iblk m c 3 t) (iblk m c 4 t) (iblk m c 5 t))
        (iblk m c 6 t) (iblk m c 7 t) ((cfg0.win 8).xinj (grid0.coords t) y)
      = result m c (((cfg0.win 8).blk t).view.emb y)
  rw [ey, eo]
  exact block_point hpay (iblk m c 0 t) (iblk m c 1 t) (iblk m c 2 t) (iblk m c 3 t) (iblk m c 4 t) (iblk m c 5 t)
    (iblk m c 6 t) (iblk m c 7 t)
    (m ((c : Thread nD τ).loc main_arg1))
    (Cert.ReferenceIdeal.Read.val_main_v7 (F := Ideal) (m ((c : Thread nD τ).loc main_arg1)) (m ((c : Thread nD τ).loc main_arg2)))
    (Cert.ReferenceIdeal.Read.val_main_v14 (F := Ideal) (m ((c : Thread nD τ).loc main_arg0)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7))
    ⟨win0_8.index t (0 : Fin 3), hb⟩ ⟨(y 1).val, hy1⟩ ⟨(y 2).val, hy2⟩ ⟨win0_8.index t (2 : Fin 3) * 512 + (y 2).val, hn⟩
    (fun j => blk_pos m c t ⟨(y 2).val, hy2⟩ j ⟨win0_8.index t (0 : Fin 3), hb⟩ ⟨win0_8.index t (2 : Fin 3) * 512 + (y 2).val, hn⟩ rfl rfl)
    (fun k j => blk_nbrPos m c t ⟨(y 2).val, hy2⟩ k j ⟨win0_8.index t (0 : Fin 3), hb⟩ ⟨win0_8.index t (2 : Fin 3) * 512 + (y 2).val, hn⟩ rfl rfl)
    (fun k d => blk_nbrFeat m c t ⟨(y 2).val, hy2⟩ k d ⟨win0_8.index t (0 : Fin 3), hb⟩ ⟨win0_8.index t (2 : Fin 3) * 512 + (y 2).val, hn⟩ rfl rfl)
    (blk_wr m c t) (blk_br m c t) (blk_wa m c t) (blk_wg m c t) (blk_bg m c t)

/-! ## The blocks cover the array -/

/-- An index of the array is in point `t`'s block iff each coordinate is in the block's range on its axis. -/
theorem mem_blk (t : Fin cfg0.N) (i : S4x128x16384.Idx) :
    i ∈ ((cfg0.win 8).blk t).view.set ↔ ∀ a : Fin 3, win0_8.index t a * S1x128x512.size a ≤ (i a).val ∧ (i a).val < win0_8.index t a * S1x128x512.size a + S1x128x512.size a := by
  show i ∈ ((View.whole main_v16).slice (win0_8.rect t)).set ↔ _
  rw [View.set_slice_whole, Rect.mem_set_unit]
  exact Iff.rfl

/-- Output `(b, o, n)` is in the block of the point at batch `b`, column block `n / 512`. -/
theorem cover (i : S4x128x16384.Idx) :
    ∃ t : Fin cfg0.N, (cfg0.win 8).flush t = true ∧ i ∈ ((cfg0.win 8).blk t).view.set := by
  have hi0 : (i 0).val < 4 := (i 0).isLt
  have hi1 : (i 1).val < 128 := (i 1).isLt
  have hi2 : (i 2).val < 16384 := (i 2).isLt
  obtain ⟨t, ht⟩ := idx_onto ⟨(i 0).val, hi0⟩ ⟨(i 2).val / 512, by omega⟩
  have q0 : win0_8.index t (0 : Fin 3) = (i 0).val := congrFun ht 0
  have q1 : win0_8.index t (1 : Fin 3) = 0 := congrFun ht 1
  have q2 : win0_8.index t (2 : Fin 3) = (i 2).val / 512 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 512 ≤ (i 2).val ∧ (i 2).val < win0_8.index t (2 : Fin 3) * 512 + 512; omega

/-- THE ARRAY after the run is the whole result. -/
theorem final (hpay : PayIs) (c : Dev nD) : (dats m 0 c).arrAt 8 cfg0.N = result m c :=
  (dats m 0 c).arrAt_eq_of_cover 8 (result m c) (fun t _ => flushed_eq m hpay c t) cover

end

/-! ## The run, read -/

/-- The kernel's run: the result array at `G` of the positions, the gathered arrays and the weights; the arguments unchanged. -/
theorem run (hpay : PayIs) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v16)
        = Cert.Randla.G (m ((c : Thread nD τ).loc main_arg1))
            (Cert.ReferenceIdeal.Read.val_main_v7 (F := Ideal) (m ((c : Thread nD τ).loc main_arg1)) (m ((c : Thread nD τ).loc main_arg2)))
            (Cert.ReferenceIdeal.Read.val_main_v14 (F := Ideal) (m ((c : Thread nD τ).loc main_arg0)) (m ((c : Thread nD τ).loc main_arg2)))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m hpay c), (h c).2⟩)
    (Cert.KernelIdeal.Value.run_blocks m ρ)

end Cert.Randla.Blocks

end
-- ==== Proof.RefPoint.lean ====
/-
  The reference program, read index by index, is the attentive pooling `G` of every point's neighbourhood.

  Each lemma reads one stage of the program at explicit coordinates `(b, n, k, c)` — batch, point, neighbour,
  channel — in terms of the specification's functions: the centre's position repeated for each neighbour, the
  neighbour's position less the centre's, the length of that difference, the ten position features `enc`
  (a concatenation read one piece at a time), the rectified affine position layer `rp`, the 128 joined
  channels `feat`, a neighbour's `score`, the greatest score `top` (the maximum along the neighbour axis,
  taken again with -∞, which changes nothing), the exponentials `ex`, their sum over the neighbours, the
  softmax weight, the weighted average `pool`, and the last rectified affine layer `out`.  The two gathered
  arrays (the neighbours' positions and features) enter only as arrays: nothing is said about how they are gathered.
  The sums over an axis start from the zero word, which is 0.  The result is the last stage with its two
  trailing axes exchanged.
-/
import proofs.«109014_j71717363908926_2_alg».proof.Proof.Gen.ReferenceIdeal.Read
import proofs.«109014_j71717363908926_2_alg».proof.Proof.Spec

noncomputable section

open scoped BigOperators

namespace Cert.Randla.Ref

open Cert.ReferenceIdeal Cert.ReferenceIdeal.Gen Cert.ReferenceIdeal.Read Idealize.ShloMosaic Idealize.ShloMosaic.ValueIdx
  Cert.PoolFold Cert.Randla

variable (x0 : (⟨S4x64x16384, .f32⟩ : BufTy).Contents (Elt Ideal)) (x1 : (⟨S4x16384x3, .f32⟩ : BufTy).Contents (Elt Ideal))
  (x2 : (⟨S4x16384x16, .i32⟩ : BufTy).Contents (Elt Ideal)) (x3 : (⟨S10x64, .f32⟩ : BufTy).Contents (Elt Ideal))
  (x4 : (⟨S64, .f32⟩ : BufTy).Contents (Elt Ideal)) (x5 x6 : (⟨S128x128, .f32⟩ : BufTy).Contents (Elt Ideal))
  (x7 : (⟨S128, .f32⟩ : BufTy).Contents (Elt Ideal))

/-- The centre's position, repeated for each neighbour. -/
theorem center_apply (b : Fin 4) (n : Fin 16384) (k : Fin 16) (j : Fin 3) :
    val_main_v16 (F := Ideal) x1 (ix4 b n k j) = x1 (ix3 b n j) := by
  rw [val_main_v16_apply, val_main_v15_apply]
  exact congrArg x1 (funext fun a => Fin.ext (by match a with | ⟨0, _⟩ => rfl | ⟨1, _⟩ => rfl | ⟨2, _⟩ => rfl))

/-- The neighbour's position less the centre's. -/
theorem rel_apply (b : Fin 4) (n : Fin 16384) (k : Fin 16) (j : Fin 3) :
    val_main_v17 (F := Ideal) x1 x2 (ix4 b n k j)
      = val_main_v7 (F := Ideal) x1 x2 (ix4 b n k j) - x1 (ix3 b n j) := by
  rw [val_main_v17_apply, center_apply]
  rfl

/-- The Euclidean length of the difference. -/
theorem dist_apply (b : Fin 4) (n : Fin 16384) (k : Fin 16) (z : Fin 1) :
    val_main_v18 (F := Ideal) x1 x2 (ix4 b n k z)
      = Ideal.sqrt (∑ j : Fin 3, (val_main_v7 (F := Ideal) x1 x2 (ix4 b n k j) - x1 (ix3 b n j))
          * (val_main_v7 (F := Ideal) x1 x2 (ix4 b n k j) - x1 (ix3 b n j))) := by
  rw [val_main_v18_apply, val_main_call0_v2_apply, val_main_call0_v1_apply, val_main_call0_cst_apply]
  show Ideal.sqrt (Ideal.ofBits .f32 0x00000000#32 + _) = _
  rw [Ideal.ofBits_zero_f32, zero_add]
  refine congrArg Ideal.sqrt (Finset.sum_congr rfl fun j _ => ?_)
  have e : idx_main_call0_v1 (idx_main_call0_v2 (ix4 b n k z)) j = ix4 b n k j :=
    funext fun a => Fin.ext (by match a with | ⟨0, _⟩ => rfl | ⟨1, _⟩ => rfl | ⟨2, _⟩ => rfl | ⟨3, _⟩ => rfl)
  rw [e, val_main_call0_v0_apply, rel_apply]
  rfl

/-- The ten position features, one piece of the concatenation at a time. -/
theorem enc_apply (b : Fin 4) (n : Fin 16384) (k : Fin 16) (e : Fin 10) :
    val_main_v19 (F := Ideal) x1 x2 (ix4 b n k e)
      = enc (fun j => x1 (ix3 b n j)) (fun j => val_main_v7 (F := Ideal) x1 x2 (ix4 b n k j)) e := by
  unfold val_main_v19
  by_cases h3 : e.val < 3
  · refine (concatenate_apply_piece (3 : Fin 4)
      [⟨S4x16384x16x3, (val_main_v16 (F := Ideal) x1)⟩,
        ⟨S4x16384x16x3, (val_main_v7 (F := Ideal) x1 x2)⟩,
        ⟨S4x16384x16x3, (val_main_v17 (F := Ideal) x1 x2)⟩,
        ⟨S4x16384x16x1, (val_main_v18 (F := Ideal) x1 x2)⟩]
      _ (ix4 b n k e) 0 (Nat.zero_lt_succ _) S4x16384x16x3 (val_main_v16 (F := Ideal) x1) rfl rfl 0 rfl
      (ix4 b n k (⟨e.val, h3⟩ : Fin 3)) (fun a ha => ?_) ?_).trans ?_
    · match a with
      | ⟨0, _⟩ => rfl
      | ⟨1, _⟩ => rfl
      | ⟨2, _⟩ => rfl
      | ⟨3, _⟩ => exact absurd rfl ha
    · show 0 + e.val = e.val
      omega
    · rw [center_apply]
      exact (enc_center (fun j => x1 (ix3 b n j)) (fun j => val_main_v7 (F := Ideal) x1 x2 (ix4 b n k j)) e ⟨e.val, h3⟩ rfl).symm
  by_cases h6 : e.val < 6
  · refine (concatenate_apply_piece (3 : Fin 4)
      [⟨S4x16384x16x3, (val_main_v16 (F := Ideal) x1)⟩,
        ⟨S4x16384x16x3, (val_main_v7 (F := Ideal) x1 x2)⟩,
        ⟨S4x16384x16x3, (val_main_v17 (F := Ideal) x1 x2)⟩,
        ⟨S4x16384x16x1, (val_main_v18 (F := Ideal) x1 x2)⟩]
      _ (ix4 b n k e) 1 (show (1 : Nat) < 4 by decide) S4x16384x16x3 (val_main_v7 (F := Ideal) x1 x2) rfl rfl 3 rfl
      (ix4 b n k (⟨e.val - 3, by omega⟩ : Fin 3)) (fun a ha => ?_) ?_).trans ?_
    · match a with
      | ⟨0, _⟩ => rfl
      | ⟨1, _⟩ => rfl
      | ⟨2, _⟩ => rfl
      | ⟨3, _⟩ => exact absurd rfl ha
    · show 3 + (e.val - 3) = e.val
      omega
    · exact (enc_nbr (fun j => x1 (ix3 b n j)) (fun j => val_main_v7 (F := Ideal) x1 x2 (ix4 b n k j)) e ⟨e.val - 3, by omega⟩ (by show e.val = 3 + (e.val - 3); omega)).symm
  by_cases h9 : e.val < 9
  · refine (concatenate_apply_piece (3 : Fin 4)
      [⟨S4x16384x16x3, (val_main_v16 (F := Ideal) x1)⟩,
        ⟨S4x16384x16x3, (val_main_v7 (F := Ideal) x1 x2)⟩,
        ⟨S4x16384x16x3, (val_main_v17 (F := Ideal) x1 x2)⟩,
        ⟨S4x16384x16x1, (val_main_v18 (F := Ideal) x1 x2)⟩]
      _ (ix4 b n k e) 2 (show (2 : Nat) < 4 by decide) S4x16384x16x3 (val_main_v17 (F := Ideal) x1 x2) rfl rfl 6 rfl
      (ix4 b n k (⟨e.val - 6, by omega⟩ : Fin 3)) (fun a ha => ?_) ?_).trans ?_
    · match a with
      | ⟨0, _⟩ => rfl
      | ⟨1, _⟩ => rfl
      | ⟨2, _⟩ => rfl
      | ⟨3, _⟩ => exact absurd rfl ha
    · show 6 + (e.val - 6) = e.val
      omega
    · rw [rel_apply]
      exact (enc_rel (fun j => x1 (ix3 b n j)) (fun j => val_main_v7 (F := Ideal) x1 x2 (ix4 b n k j)) e ⟨e.val - 6, by omega⟩ (by show e.val = 6 + (e.val - 6); omega)).symm
  · refine (concatenate_apply_piece (3 : Fin 4)
      [⟨S4x16384x16x3, (val_main_v16 (F := Ideal) x1)⟩,
        ⟨S4x16384x16x3, (val_main_v7 (F := Ideal) x1 x2)⟩,
        ⟨S4x16384x16x3, (val_main_v17 (F := Ideal) x1 x2)⟩,
        ⟨S4x16384x16x1, (val_main_v18 (F := Ideal) x1 x2)⟩]
      _ (ix4 b n k e) 3 (show (3 : Nat) < 4 by decide) S4x16384x16x1 (val_main_v18 (F := Ideal) x1 x2) rfl rfl 9 rfl
      (ix4 b n k (⟨0, Nat.one_pos⟩ : Fin 1)) (fun a ha => ?_) ?_).trans ?_
    · match a with
      | ⟨0, _⟩ => rfl
      | ⟨1, _⟩ => rfl
      | ⟨2, _⟩ => rfl
      | ⟨3, _⟩ => exact absurd rfl ha
    · show 9 + 0 = e.val
      have := e.isLt
      omega
    · rw [dist_apply]
      exact (enc_dist (fun j => x1 (ix3 b n j)) (fun j => val_main_v7 (F := Ideal) x1 x2 (ix4 b n k j)) e (by have := e.isLt; omega)).symm

/-- The position layer. -/
theorem rp_apply (b : Fin 4) (n : Fin 16384) (k : Fin 16) (d : Fin 64) :
    val_main_v24 (F := Ideal) x1 x2 x3 x4 (ix4 b n k d)
      = rp (fun e d' => x3 (ix2 e d')) (fun d' => x4 (ix1 d')) (fun j => x1 (ix3 b n j))
          (fun j => val_main_v7 (F := Ideal) x1 x2 (ix4 b n k j)) d := by
  rw [val_main_v24_apply, val_main_v23_apply, val_main_v20_apply, val_main_v22_apply, val_main_v21_apply,
    val_main_call1_v0_apply, val_main_call1_cst_apply]
  show max ((∑ e : Fin 10, _) + _) (Ideal.ofBits .f32 0x00000000#32) = _
  rw [Ideal.ofBits_zero_f32]
  unfold rp
  refine congrArg (fun t => max t 0) ?_
  refine congrArg₂ (· + ·) (Finset.sum_congr rfl fun e _ => ?_) ?_
  · have el : lidx_main_v20 (ix4 b n k d) e = ix4 b n k e :=
      funext fun a => Fin.ext (by match a with | ⟨0, _⟩ => rfl | ⟨1, _⟩ => rfl | ⟨2, _⟩ => rfl | ⟨3, _⟩ => rfl)
    have er : ridx_main_v20 (ix4 b n k d) e = ix2 e d :=
      funext fun a => Fin.ext (by match a with | ⟨0, _⟩ => rfl | ⟨1, _⟩ => rfl)
    rw [el, er, enc_apply]
  · exact congrArg x4 (funext fun a => Fin.ext (by match a with | ⟨0, _⟩ => rfl))

/-- A neighbour's 128 channels: the position layer's, then its own. -/
theorem feat_apply (b : Fin 4) (n : Fin 16384) (k : Fin 16) (c : Fin 128) :
    val_main_v25 (F := Ideal) x0 x1 x2 x3 x4 (ix4 b n k c)
      = feat (fun e d' => x3 (ix2 e d')) (fun d' => x4 (ix1 d')) (fun j => x1 (ix3 b n j))
          (fun j => val_main_v7 (F := Ideal) x1 x2 (ix4 b n k j))
          (fun d' => val_main_v14 (F := Ideal) x0 x2 (ix4 b n k d')) c := by
  unfold val_main_v25
  by_cases h : c.val < 64
  · refine (concatenate_apply_piece (3 : Fin 4)
      [⟨S4x16384x16x64, (val_main_v24 (F := Ideal) x1 x2 x3 x4)⟩,
        ⟨S4x16384x16x64, (val_main_v14 (F := Ideal) x0 x2)⟩]
      _ (ix4 b n k c) 0 (show (0 : Nat) < 2 by decide) S4x16384x16x64 (val_main_v24 (F := Ideal) x1 x2 x3 x4) rfl rfl 0 rfl
      (ix4 b n k (⟨c.val, h⟩ : Fin 64)) (fun a ha => ?_) ?_).trans ?_
    · match a with
      | ⟨0, _⟩ => rfl
      | ⟨1, _⟩ => rfl
      | ⟨2, _⟩ => rfl
      | ⟨3, _⟩ => exact absurd rfl ha
    · show 0 + c.val = c.val
      omega
    · rw [rp_apply]
      exact (feat_lo (fun e d' => x3 (ix2 e d')) (fun d' => x4 (ix1 d')) (fun j => x1 (ix3 b n j)) (fun j => val_main_v7 (F := Ideal) x1 x2 (ix4 b n k j)) (fun d' => val_main_v14 (F := Ideal) x0 x2 (ix4 b n k d')) c ⟨c.val, h⟩ rfl).symm
  · refine (concatenate_apply_piece (3 : Fin 4)
      [⟨S4x16384x16x64, (val_main_v24 (F := Ideal) x1 x2 x3 x4)⟩,
        ⟨S4x16384x16x64, (val_main_v14 (F := Ideal) x0 x2)⟩]
      _ (ix4 b n k c) 1 (show (1 : Nat) < 2 by decide) S4x16384x16x64 (val_main_v14 (F := Ideal) x0 x2) rfl rfl 64 rfl
      (ix4 b n k (⟨c.val - 64, by have := c.isLt; omega⟩ : Fin 64)) (fun a ha => ?_) ?_).trans ?_
    · match a with
      | ⟨0, _⟩ => rfl
      | ⟨1, _⟩ => rfl
      | ⟨2, _⟩ => rfl
      | ⟨3, _⟩ => exact absurd rfl ha
    · show 64 + (c.val - 64) = c.val
      omega
    · exact (feat_hi (fun e d' => x3 (ix2 e d')) (fun d' => x4 (ix1 d')) (fun j => x1 (ix3 b n j)) (fun j => val_main_v7 (F := Ideal) x1 x2 (ix4 b n k j)) (fun d' => val_main_v14 (F := Ideal) x0 x2 (ix4 b n k d')) c ⟨c.val - 64, by have := c.isLt; omega⟩ (by show c.val = 64 + (c.val - 64); omega)).symm

/-- The sixteen neighbours' features of point `n` of batch `b`. -/
def nbrFeat (b : Fin 4) (n : Fin 16384) : Fin 16 → Fin 128 → EReal := fun k =>
  feat (fun e d' => x3 (ix2 e d')) (fun d' => x4 (ix1 d')) (fun j => x1 (ix3 b n j))
    (fun j => val_main_v7 (F := Ideal) x1 x2 (ix4 b n k j))
    (fun d' => val_main_v14 (F := Ideal) x0 x2 (ix4 b n k d'))

theorem nbrFeat_apply (b : Fin 4) (n : Fin 16384) (k : Fin 16) (c : Fin 128) :
    val_main_v25 (F := Ideal) x0 x1 x2 x3 x4 (ix4 b n k c) = nbrFeat x0 x1 x2 x3 x4 b n k c :=
  feat_apply x0 x1 x2 x3 x4 b n k c

/-- A neighbour's score in a channel. -/
theorem score_apply (b : Fin 4) (n : Fin 16384) (k : Fin 16) (c : Fin 128) :
    val_main_v26 (F := Ideal) x0 x1 x2 x3 x4 x5 (ix4 b n k c)
      = score (fun a c' => x5 (ix2 a c')) (nbrFeat x0 x1 x2 x3 x4 b n k) c := by
  rw [val_main_v26_apply]
  unfold score
  refine Finset.sum_congr rfl fun a _ => ?_
  have el : lidx_main_v26 (ix4 b n k c) a = ix4 b n k a :=
    funext fun d => Fin.ext (by match d with | ⟨0, _⟩ => rfl | ⟨1, _⟩ => rfl | ⟨2, _⟩ => rfl | ⟨3, _⟩ => rfl)
  have er : ridx_main_v26 (ix4 b n k c) a = ix2 a c :=
    funext fun d => Fin.ext (by match d with | ⟨0, _⟩ => rfl | ⟨1, _⟩ => rfl)
  rw [el, er, nbrFeat_apply]

/-- The greatest score of a channel among the neighbours. -/
theorem top_apply (b : Fin 4) (n : Fin 16384) (c : Fin 128) :
    val_main_v29 (F := Ideal) x0 x1 x2 x3 x4 x5 (ix3 b n c)
      = top (fun a c' => x5 (ix2 a c')) (nbrFeat x0 x1 x2 x3 x4 b n) c := by
  rw [val_main_v29_apply, val_main_v28_apply, val_main_cst_3_apply]
  unfold val_main_v27
  have hR : S4x16384x16x128.Reduces [2] S4x16384x128 := by decide
  refine (congrArg (FloatOps.maximumf (F := Ideal) (FloatOps.ofBits .f32 0xFF800000#32))
    (Host.reduce_eq_fold_single (FloatOps.maximumf (F := Ideal) (φ := .f32)) (val_main_v26 (F := Ideal) x0 x1 x2 x3 x4 x5)
      (val_main_cst (F := Ideal)) reducesTo_S4x16384x16x128_S4x16384x128_d2 hR h_S_ (ix3 b n c))).trans ?_
  unfold top
  refine (max_ninf_maxOver ninf
    (fun k : Fin 16 => val_main_v26 (F := Ideal) x0 x1 x2 x3 x4 x5 (hR.lift (ix3 b n c) k))).trans ?_
  refine maxOver_congr ninf fun k => ?_
  have e : hR.lift (ix3 b n c) k = ix4 b n k c :=
    funext fun a => Fin.ext (by match a with | ⟨0, _⟩ => rfl | ⟨1, _⟩ => rfl | ⟨2, _⟩ => rfl | ⟨3, _⟩ => rfl)
  rw [e, score_apply]

/-- The exponential of a neighbour's score less the greatest. -/
theorem ex_apply (b : Fin 4) (n : Fin 16384) (k : Fin 16) (c : Fin 128) :
    val_main_v33 (F := Ideal) x0 x1 x2 x3 x4 x5 (ix4 b n k c)
      = ex (fun a c' => x5 (ix2 a c')) (nbrFeat x0 x1 x2 x3 x4 b n) k c := by
  rw [val_main_v33_apply, val_main_v32_apply, val_main_v31_apply, val_main_v30_apply, score_apply]
  have e : idx_main_v30 (idx_main_v31 (ix4 b n k c)) = ix3 b n c :=
    funext fun a => Fin.ext (by match a with | ⟨0, _⟩ => rfl | ⟨1, _⟩ => rfl | ⟨2, _⟩ => rfl)
  rw [e, top_apply]
  rfl

/-- The sum of a channel's exponentials over the neighbours. -/
theorem denom_apply (b : Fin 4) (n : Fin 16384) (c : Fin 128) :
    val_main_v34 (F := Ideal) x0 x1 x2 x3 x4 x5 (ix3 b n c)
      = ∑ k : Fin 16, ex (fun a c' => x5 (ix2 a c')) (nbrFeat x0 x1 x2 x3 x4 b n) k c := by
  rw [val_main_v34_apply, val_main_cst_4_apply]
  show Ideal.ofBits .f32 0x00000000#32 + _ = _
  rw [Ideal.ofBits_zero_f32, zero_add]
  refine Finset.sum_congr rfl fun k _ => ?_
  have e : idx_main_v34 (ix3 b n c) k = ix4 b n k c :=
    funext fun a => Fin.ext (by match a with | ⟨0, _⟩ => rfl | ⟨1, _⟩ => rfl | ⟨2, _⟩ => rfl | ⟨3, _⟩ => rfl)
  rw [e, ex_apply]

/-- A neighbour's softmax weight in a channel. -/
theorem weight_apply (b : Fin 4) (n : Fin 16384) (k : Fin 16) (c : Fin 128) :
    val_main_v37 (F := Ideal) x0 x1 x2 x3 x4 x5 (ix4 b n k c)
      = Ideal.div (ex (fun a c' => x5 (ix2 a c')) (nbrFeat x0 x1 x2 x3 x4 b n) k c) (∑ k' : Fin 16, ex (fun a c' => x5 (ix2 a c')) (nbrFeat x0 x1 x2 x3 x4 b n) k' c) := by
  rw [val_main_v37_apply, val_main_v36_apply, val_main_v35_apply, ex_apply]
  have e : idx_main_v35 (idx_main_v36 (ix4 b n k c)) = ix3 b n c :=
    funext fun a => Fin.ext (by match a with | ⟨0, _⟩ => rfl | ⟨1, _⟩ => rfl | ⟨2, _⟩ => rfl)
  rw [e, denom_apply]
  rfl

/-- The weighted average of the neighbours' features. -/
theorem pool_apply (b : Fin 4) (n : Fin 16384) (c : Fin 128) :
    val_main_v39 (F := Ideal) x0 x1 x2 x3 x4 x5 (ix3 b n c)
      = pool (fun a c' => x5 (ix2 a c')) (nbrFeat x0 x1 x2 x3 x4 b n) c := by
  rw [val_main_v39_apply, val_main_cst_5_apply]
  show Ideal.ofBits .f32 0x00000000#32 + _ = _
  rw [Ideal.ofBits_zero_f32, zero_add]
  unfold pool
  refine Finset.sum_congr rfl fun k _ => ?_
  have e : idx_main_v39 (ix3 b n c) k = ix4 b n k c :=
    funext fun a => Fin.ext (by match a with | ⟨0, _⟩ => rfl | ⟨1, _⟩ => rfl | ⟨2, _⟩ => rfl | ⟨3, _⟩ => rfl)
  rw [e, val_main_v38_apply, nbrFeat_apply, weight_apply]
  rfl

/-- The last layer. -/
theorem out_apply (b : Fin 4) (n : Fin 16384) (o : Fin 128) :
    val_main_v44 (F := Ideal) x0 x1 x2 x3 x4 x5 x6 x7 (ix3 b n o)
      = out (fun c' o' => x6 (ix2 c' o')) (fun o' => x7 (ix1 o')) (pool (fun a c' => x5 (ix2 a c')) (nbrFeat x0 x1 x2 x3 x4 b n)) o := by
  rw [val_main_v44_apply, val_main_v43_apply, val_main_v40_apply, val_main_v42_apply, val_main_v41_apply,
    val_main_call2_v0_apply, val_main_call2_cst_apply]
  show max ((∑ c : Fin 128, _) + _) (Ideal.ofBits .f32 0x00000000#32) = _
  rw [Ideal.ofBits_zero_f32]
  unfold out
  refine congrArg (fun t => max t 0) ?_
  refine congrArg₂ (· + ·) (Finset.sum_congr rfl fun c _ => ?_) ?_
  · have el : lidx_main_v40 (ix3 b n o) c = ix3 b n c :=
      funext fun a => Fin.ext (by match a with | ⟨0, _⟩ => rfl | ⟨1, _⟩ => rfl | ⟨2, _⟩ => rfl)
    have er : ridx_main_v40 (ix3 b n o) c = ix2 c o :=
      funext fun a => Fin.ext (by match a with | ⟨0, _⟩ => rfl | ⟨1, _⟩ => rfl)
    rw [el, er, pool_apply]
  · exact congrArg x7 (funext fun a => Fin.ext (by match a with | ⟨0, _⟩ => rfl))

/-- The reference computes the attentive pooling of every point's neighbourhood. -/
theorem ref_eq :
    val_main_v45 (F := Ideal) x0 x1 x2 x3 x4 x5 x6 x7
      = G x1 (val_main_v7 (F := Ideal) x1 x2) (val_main_v14 (F := Ideal) x0 x2) x3 x4 x5 x6 x7 := by
  funext i
  obtain ⟨b, o, n, rfl⟩ : ∃ (b : Fin 4) (o : Fin 128) (n : Fin 16384), i = ix3 b o n := ⟨i 0, i 1, i 2, eq_ix3 i⟩
  rw [G_apply, val_main_v45_apply]
  have e : idx_main_v45 (ix3 b o n) = ix3 b n o :=
    funext fun a => Fin.ext (by match a with | ⟨0, _⟩ => rfl | ⟨1, _⟩ => rfl | ⟨2, _⟩ => rfl)
  rw [e, out_apply]
  rfl

end Cert.Randla.Ref

end
-- ==== Proof.lean ====
/-
  The kernel and its reference compute, for every query point of a point cloud, the attentive pooling of its sixteen
  gathered neighbours (`Cert.Randla.point`: position encoding, a rectified affine layer, scores, softmax over the
  neighbours channel by channel, the weighted average of the features, a last rectified affine layer).  The kernel
  works on blocks of 512 points and stores its result transposed; the reference works on the whole arrays and
  transposes at the end.  Both gather the neighbours' positions and features by the same host operations, which are
  kept as they stand.  On the extended reals the two results are the same array `Cert.Randla.G` of the arguments,
  operation for operation: a change of float format is the identity, the matrix unit's product into a zero accumulator
  is the host's dot product, and a sum or a maximum along an axis is the same sum or maximum however it is laid out.
  The precondition is not needed for the values: no step relies on an entry being finite.

  `KernelFeat` and `KernelPool` read the kernel body's payload at an index, `Blocks` carries it from the blocks to the
  whole result array, `RefPoint` reads the reference's operations at an index; here the five claims are assembled.
-/
import proofs.«109014_j71717363908926_2_alg».proof.Defs
import proofs.«109014_j71717363908926_2_alg».proof.Proof.Gen.Kernel
import proofs.«109014_j71717363908926_2_alg».proof.Proof.Gen.Kernel.Skeleton
import proofs.«109014_j71717363908926_2_alg».proof.Proof.Gen.Kernel.Launch
import proofs.«109014_j71717363908926_2_alg».proof.Proof.Gen.Kernel.Points
import proofs.«109014_j71717363908926_2_alg».proof.Proof.Gen.Kernel.Frame
import proofs.«109014_j71717363908926_2_alg».proof.Proof.Gen.KernelIdeal
import proofs.«109014_j71717363908926_2_alg».proof.Proof.Gen.KernelIdeal.Skeleton
import proofs.«109014_j71717363908926_2_alg».proof.Proof.Gen.KernelIdeal.Launch
import proofs.«109014_j71717363908926_2_alg».proof.Proof.Gen.KernelIdeal.Points
import proofs.«109014_j71717363908926_2_alg».proof.Proof.Gen.KernelIdeal.Frame
import proofs.«109014_j71717363908926_2_alg».proof.Proof.Gen.ReferenceIdeal
import proofs.«109014_j71717363908926_2_alg».proof.Proof.Gen.Pre_finite_inputs
import proofs.«109014_j71717363908926_2_alg».proof.Proof.Gen.KernelIdeal.Value
import proofs.«109014_j71717363908926_2_alg».proof.Proof.Gen.ReferenceIdeal.Run
import proofs.«109014_j71717363908926_2_alg».proof.Proof.Gen.ReferenceIdeal.Read
import proofs.«109014_j71717363908926_2_alg».proof.Proof.KernelPool
import proofs.«109014_j71717363908926_2_alg».proof.Proof.Blocks
import proofs.«109014_j71717363908926_2_alg».proof.Proof.RefPoint
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference's run, its result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The body's payload at an index is one point's pooling. -/
theorem payIs : Cert.Randla.Blocks.PayIs := fun x0 x1 x2 x3 x4 x5 x6 x7 o r =>
  Cert.Randla.Kernel.pay_apply x0 x1 x2 x3 x4 x5 x6 x7 o r

/-- Both programs end with the array `G` of the arguments: the kernel block by block, the reference operation by
    operation, from arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Randla.Blocks.run payIs m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.Randla.Ref.ref_eq, (hagree c).1, (hagree c).2.1, (hagree c).2.2.1,
    (hagree c).2.2.2.1, (hagree c).2.2.2.2.1, (hagree c).2.2.2.2.2.1, (hagree c).2.2.2.2.2.2.1,
    (hagree c).2.2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
